-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x5 : Shape := ⟨2, ![524288, 5]⟩
abbrev S5 : Shape := ⟨1, ![5]⟩
abbrev S128x5 : Shape := ⟨2, ![128, 5]⟩
abbrev S128 : Shape := ⟨1, ![128]⟩
abbrev S32x128 : Shape := ⟨2, ![32, 128]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S524288x5 : S_.BroadcastsInDim S524288x5 (![] : Fin 0 → Fin S524288x5.rank)
  reducesTo_S524288x5_S_d0_1 : S524288x5.ReducesTo [0, 1] S_
  h_S_ : 0 < S_.numel
  bcast_S_S5 : S_.BroadcastsInDim S5 (![] : Fin 0 → Fin S5.rank)
  reducesTo_S5_S_d0 : S5.ReducesTo [0] S_
  bcast_S_S128x5 : S_.BroadcastsInDim S128x5 (![] : Fin 0 → Fin S128x5.rank)
  reducesTo_S128x5_S_d0_1 : S128x5.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1x32 .f32) (main_arg12 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1x32 .f32 := Host.absf main_arg11
  let main_cst_20 : FVec F S_ .f32 := constant S_ .f32 0x7F800000#32
  let main_v55 : FVec F S1x32 .f32 := broadcastInDim S1x32 ![] bcast_S_S1x32 main_cst_20
  let main_v56 : IVec S1x32 1 := cmpf .olt main_v54 main_v55
  let main_c_21 : IVec S_ 1 := constantI S_ 1 1#1
  let main_v57 : IVec S_ 1 := (fun x v => Host.reduce IntOp.andi x v reducesTo_S1x32_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S32x128 .f32) (main_arg8 : FVec F S32 .f32) (main_arg9 : FVec F S1x32 .f32) (main_arg10 : FVec F S1 .f32) (main_arg11 : FVec F S1x32 .f32) (main_arg12 : FVec F S1 .f32) (main_v33 : IVec S_ 1) : IVec S_ 1 :=
  let main_v34 : FVec F S32x128 .f32 := Host.absf main_arg7
  let main_cst_12 : FVec F S_ .f32 := constant S_ .f32 0x7F800000#32
  let main_v35 : FVec F S32x128 .f32 := broadcastInDim S32x128 ![] bcast_S_S32x128 main_cst_12
  let main_v36 : IVec S32x128 1 := cmpf .olt main_v34 main_v35
  let main_c_13 : IVec S_ 1 := constantI S_ 1 1#1
  let main_v37 : IVec S_ 1 := (fun x v => Host.reduce IntOp.andi x v reducesTo_S32x128_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S1x32 .f32 := Host.absf main_arg9
  let main_cst_16 : FVec F S_ .f32 := constant S_ .f32 0x7F800000#32
  let main_v45 : FVec F S1x32 .f32 := broadcastInDim S1x32 ![] bcast_S_S1x32 main_cst_16
  let main_v46 : IVec S1x32 1 := cmpf .olt main_v44 main_v45
  let main_c_17 : IVec S_ 1 := constantI S_ 1 1#1
  let main_v47 : IVec S_ 1 := (fun x v => Host.reduce IntOp.andi x v reducesTo_S1x32_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_v48 main_v49 main_v50

def fn_part1 {F : FTy → Type} [FloatOps F] (main_arg4 : FVec F S128 .f32) (main_arg5 : FVec F S32x128 .f32) (main_arg6 : FVec F S32 .f32) (main_arg7 : FVec F S32x128 .f32) (main_arg8 : FVec F S32 .f32) (main_arg9 : FVec F S1x32 .f32) (main_arg10 : FVec F S1 .f32) (main_arg11 : FVec F S1x32 .f32) (main_arg12 : FVec F S1 .f32) (main_v13 : IVec S_ 1) (main_v16 : IVec S128x5 1) : IVec S_ 1 :=
  let main_c_5 : IVec S_ 1 := constantI S_ 1 1#1
  let main_v17 : IVec S_ 1 := (fun x v => Host.reduce IntOp.andi x v reducesTo_S128x5_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S32x128 .f32 := Host.absf main_arg5
  let main_cst_8 : FVec F S_ .f32 := constant S_ .f32 0x7F800000#32
  let main_v25 : FVec F S32x128 .f32 := broadcastInDim S32x128 ![] bcast_S_S32x128 main_cst_8
  let main_v26 : IVec S32x128 1 := cmpf .olt main_v24 main_v25
  let main_c_9 : IVec S_ 1 := constantI S_ 1 1#1
  let main_v27 : IVec S_ 1 := (fun x v => Host.reduce IntOp.andi x v reducesTo_S32x128_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S524288x5 .f32) (main_arg1 : FVec F S5 .f32) (main_arg2 : FVec F S5 .f32) (main_arg3 : FVec F S128x5 .f32) (main_arg4 : FVec F S128 .f32) (main_arg5 : FVec F S32x128 .f32) (main_arg6 : FVec F S32 .f32) (main_arg7 : FVec F S32x128 .f32) (main_arg8 : FVec F S32 .f32) (main_arg9 : FVec F S1x32 .f32) (main_arg10 : FVec F S1 .f32) (main_arg11 : FVec F S1x32 .f32) (main_arg12 : FVec F S1 .f32) : IVec S_ 1 :=
  let main_v0 : FVec F S524288x5 .f32 := Host.absf main_arg0
  let main_cst : FVec F S_ .f32 := constant S_ .f32 0x7F800000#32
  let main_v1 : FVec F S524288x5 .f32 := broadcastInDim S524288x5 ![] bcast_S_S524288x5 main_cst
  let main_v2 : IVec S524288x5 1 := cmpf .olt main_v0 main_v1
  let main_c : IVec S_ 1 := constantI S_ 1 1#1
  let main_v3 : IVec S_ 1 := (fun x v => Host.reduce IntOp.andi x v reducesTo_S524288x5_S_d0_1 h_S_) main_v2 main_c
  let main_v4 : FVec F S5 .f32 := Host.absf main_arg1
  let main_cst_0 : FVec F S_ .f32 := constant S_ .f32 0x7F800000#32
  let main_v5 : FVec F S5 .f32 := broadcastInDim S5 ![] bcast_S_S5 main_cst_0
  let main_v6 : IVec S5 1 := cmpf .olt main_v4 main_v5
  let main_c_1 : IVec S_ 1 := constantI S_ 1 1#1
  let main_v7 : IVec S_ 1 := (fun x v => Host.reduce IntOp.andi x v reducesTo_S5_S_d0 h_S_) main_v6 main_c_1
  let main_v8 : IVec S_ 1 := andi main_v3 main_v7
  let main_v9 : FVec F S5 .f32 := Host.absf main_arg2
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S128x5 .f32 := Host.absf main_arg3
  let main_cst_4 : FVec F S_ .f32 := constant S_ .f32 0x7F800000#32
  let main_v15 : FVec F S128x5 .f32 := broadcastInDim S128x5 ![] bcast_S_S128x5 main_cst_4
  let main_v16 : IVec S128x5 1 := cmpf .olt main_v14 main_v15
  fn_part1 (F := F) main_arg4 main_arg5 main_arg6 main_arg7 main_arg8 main_arg9 main_arg10 main_arg11 main_arg12 main_v13 main_v16
-- ==== Kernel.lean ====
abbrev S524288x5 : Shape := ⟨2, ![524288, 5]⟩
abbrev S5 : Shape := ⟨1, ![5]⟩
abbrev S128x5 : Shape := ⟨2, ![128, 5]⟩
abbrev S128 : Shape := ⟨1, ![128]⟩
abbrev S32x128 : Shape := ⟨2, ![32, 128]⟩
abbrev S32 : Shape := ⟨1, ![32]⟩
abbrev S1x32 : Shape := ⟨2, ![1, 32]⟩
abbrev S1 : Shape := ⟨1, ![1]⟩
abbrev S5x524288 : Shape := ⟨2, ![5, 524288]⟩
abbrev S5x1 : Shape := ⟨2, ![5, 1]⟩
abbrev S128x1 : Shape := ⟨2, ![128, 1]⟩
abbrev S32x1 : Shape := ⟨2, ![32, 1]⟩
abbrev S1x1 : Shape := ⟨2, ![1, 1]⟩
abbrev S1x524288 : Shape := ⟨2, ![1, 524288]⟩
abbrev S5x16384 : Shape := ⟨2, ![5, 16384]⟩
abbrev S1x16384 : Shape := ⟨2, ![1, 16384]⟩
abbrev S128x16384 : Shape := ⟨2, ![128, 16384]⟩
abbrev S32x16384 : Shape := ⟨2, ![32, 16384]⟩
abbrev S524288x1 : Shape := ⟨2, ![524288, 1]⟩

abbrev nBuf : Space → Nat
  | .hbm => 23
  | .vmem => 16
  | .smem => 0
  | _ => 0

abbrev bufTy : (tb : Table) → Fin (tcTables nBuf tb) → BufTy
  | .hbm, ⟨0, _⟩ => ⟨S524288x5, .f32⟩
  | .hbm, ⟨1, _⟩ => ⟨S5, .f32⟩
  | .hbm, ⟨2, _⟩ => ⟨S5, .f32⟩
  | .hbm, ⟨3, _⟩ => ⟨S128x5, .f32⟩
  | .hbm, ⟨4, _⟩ => ⟨S128, .f32⟩
  | .hbm, ⟨5, _⟩ => ⟨S32x128, .f32⟩
  | .hbm, ⟨6, _⟩ => ⟨S32, .f32⟩
  | .hbm, ⟨7, _⟩ => ⟨S32x128, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S1x32, .f32⟩
  | .hbm, ⟨12, _⟩ => ⟨S1, .f32⟩
  | .hbm, ⟨13, _⟩ => ⟨S5x524288, .f32⟩
  | .hbm, ⟨14, _⟩ => ⟨S5x1, .f32⟩
  | .hbm, ⟨15, _⟩ => ⟨S5x1, .f32⟩
  | .hbm, ⟨16, _⟩ => ⟨S128x1, .f32⟩
  | .hbm, ⟨17, _⟩ => ⟨S32x1, .f32⟩
  | .hbm, ⟨18, _⟩ => ⟨S32x1, .f32⟩
  | .hbm, ⟨19, _⟩ => ⟨S1x1, .f32⟩
  | .hbm, ⟨20, _⟩ => ⟨S1x1, .f32⟩
  | .hbm, ⟨21, _⟩ => ⟨S1x524288, .f32⟩
  | .hbm, ⟨22, _⟩ => ⟨S524288x1, .f32⟩
  | .local _ .vmem, ⟨0, _⟩ => ⟨S5x16384, .f32⟩
  | .local _ .vmem, ⟨1, _⟩ => ⟨S5x16384, .f32⟩
  | .local _ .vmem, ⟨2, _⟩ => ⟨S5x1, .f32⟩
  | .local _ .vmem, ⟨3, _⟩ => ⟨S5x1, .f32⟩
  | .local _ .vmem, ⟨4, _⟩ => ⟨S128x5, .f32⟩
  | .local _ .vmem, ⟨5, _⟩ => ⟨S128x1, .f32⟩
  | .local _ .vmem, ⟨6, _⟩ => ⟨S32x128, .f32⟩
  | .local _ .vmem, ⟨7, _⟩ => ⟨S32x1, .f32⟩
  | .local _ .vmem, ⟨8, _⟩ => ⟨S32x128, .f32⟩
  | .local _ .vmem, ⟨9, _⟩ => ⟨S32x1, .f32⟩
  | .local _ .vmem, ⟨10, _⟩ => ⟨S1x32, .f32⟩
  | .local _ .vmem, ⟨11, _⟩ => ⟨S1x1, .f32⟩
  | .local _ .vmem, ⟨12, _⟩ => ⟨S1x32, .f32⟩
  | .local _ .vmem, ⟨13, _⟩ => ⟨S1x1, .f32⟩
  | .local _ .vmem, ⟨14, _⟩ => ⟨S1x16384, .f32⟩
  | .local _ .vmem, ⟨15, _⟩ => ⟨S1x16384, .f32⟩
  | _, _ => ⟨S524288x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x16384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  transposes_S524288x5_S5x524288_1_0 : S524288x5.Transposes [1, 0] S5x524288
  shapeCasts_S5_S5x1 : S5.ShapeCasts S5x1
  shapeCasts_S128_S128x1 : S128.ShapeCasts S128x1
  shapeCasts_S32_S32x1 : S32.ShapeCasts S32x1
  shapeCasts_S1_S1x1 : S1.ShapeCasts S1x1
  inb_S5x16384_S5x16384_0_0 : ∀ a, (![0, 0] : Fin 2 → Nat) a + S5x16384.size a ≤ S5x16384.size a
  h_S5x16384 : 0 < S5x16384.numel
  shapeCasts_S5x16384_S5x16384 : S5x16384.ShapeCasts S5x16384
  inb_S5x1_S5x1_0_0 : ∀ a, (![0, 0] : Fin 2 → Nat) a + S5x1.size a ≤ S5x1.size a
  h_S5x1 : 0 < S5x1.numel
  shapeCasts_S5x1_S5x1 : S5x1.ShapeCasts S5x1
  broadcasts_S5x1_S5x16384 : S5x1.Broadcasts S5x16384
  bitsLt_bf16_f32 : FTy.bits .bf16 < FTy.bits .f32
  inb_S128x5_S128x5_0_0 : ∀ a, (![0, 0] : Fin 2 → Nat) a + S128x5.size a ≤ S128x5.size a
  h_S128x5 : 0 < S128x5.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x16384 : S128x1.Broadcasts S128x16384
  inb_S32x128_S32x128_0_0 : ∀ a, (![0, 0] : Fin 2 → Nat) a + S32x128.size a ≤ S32x128.size a
  h_S32x128 : 0 < S32x128.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x16384 : S32x1.Broadcasts S32x16384
  inb_S1x32_S1x32_0_0 : ∀ a, (![0, 0] : Fin 2 → Nat) a + S1x32.size a ≤ S1x32.size a
  h_S1x32 : 0 < S1x32.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x16384 : S1x1.Broadcasts S1x16384
  slices_S5x16384_o1_0_S1x16384 : S5x16384.Slices ![1, 0] S1x16384
  slices_S5x16384_o3_0_S1x16384 : S5x16384.Slices ![3, 0] S1x16384
  slices_S5x16384_o0_0_S1x16384 : S5x16384.Slices ![0, 0] S1x16384
  slices_S5x16384_o2_0_S1x16384 : S5x16384.Slices ![2, 0] S1x16384
  inb_S1x16384_S1x16384_0_0 : ∀ a, (![0, 0] : Fin 2 → Nat) a + S1x16384.size a ≤ S1x16384.size a
  h_S1x16384 : 0 < S1x16384.numel
  shapeCasts_S1x524288_S524288x1 : S1x524288.ShapeCasts S524288x1
  dot_S128x5_S5x16384_S128x16384_1_0_0_1_n_n_wf : DotDims.WF S128x5 S5x16384 S128x16384 [1] [0] [0] [1] [] []
  dot_S32x128_S128x16384_S32x16384_1_0_0_1_n_n_wf : DotDims.WF S32x128 S128x16384 S32x16384 [1] [0] [0] [1] [] []
  dot_S1x32_S32x16384_S1x16384_1_0_0_1_n_n_wf : DotDims.WF S1x32 S32x16384 S1x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x16384.size a ≤ S5x524288.size a
  hwx0_0 : ∀ i : grid0.Coords, EltTy.bits .f32 = 32 ∨ (Rect.block (s := S5x524288) S5x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x1.size a ≤ S5x1.size a
  hwx0_1 : ∀ i : grid0.Coords, EltTy.bits .f32 = 32 ∨ (Rect.block (s := S5x1) S5x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x1.size a ≤ S5x1.size a
  hwx0_2 : ∀ i : grid0.Coords, EltTy.bits .f32 = 32 ∨ (Rect.block (s := S5x1) S5x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x5.size a ≤ S128x5.size a
  hwx0_3 : ∀ i : grid0.Coords, EltTy.bits .f32 = 32 ∨ (Rect.block (s := S128x5) S128x5.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S32x1.size a
  hwx0_6 : ∀ i : grid0.Coords, EltTy.bits .f32 = 32 ∨ (Rect.block (s := S32x1) S32x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x128.size a ≤ S32x128.size a
  hwx0_7 : ∀ i : grid0.Coords, EltTy.bits .f32 = 32 ∨ (Rect.block (s := S32x128) S32x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1.size a ≤ S32x1.size a
  hwx0_8 : ∀ i : grid0.Coords, EltTy.bits .f32 = 32 ∨ (Rect.block (s := S32x1) S32x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x32.size a ≤ S1x32.size a
  hwx0_11 : ∀ i : grid0.Coords, EltTy.bits .f32 = 32 ∨ (Rect.block (s := S1x32) S1x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x16384.size a ≤ S1x524288.size a
  hwx0_13 : ∀ i : grid0.Coords, EltTy.bits .f32 = 32 ∨ (Rect.block (s := S1x524288) S1x16384.size (cc0_transform_13 i) (hinb0_13 i)).WholeWords (EltTy.packing .f32)

variable [Facts₀]

def dot_S128x5_S5x16384_S128x16384_1_0_0_1_n_n : DotDims S128x5 S5x16384 S128x16384 where
  lhsContracting := [1]
  rhsContracting := [0]
  lhsNonContracting := [0]
  rhsNonContracting := [1]
  lhsBatch := []
  rhsBatch := []
  wf := dot_S128x5_S5x16384_S128x16384_1_0_0_1_n_n_wf
def dot_S32x128_S128x16384_S32x16384_1_0_0_1_n_n : DotDims S32x128 S128x16384 S32x16384 where
  lhsContracting := [1]
  rhsContracting := [0]
  lhsNonContracting := [0]
  rhsNonContracting := [1]
  lhsBatch := []
  rhsBatch := []
  wf := dot_S32x128_S128x16384_S32x16384_1_0_0_1_n_n_wf
def dot_S1x32_S32x16384_S1x16384_1_0_0_1_n_n : DotDims S1x32 S32x16384 S1x16384 where
  lhsContracting := [1]
  rhsContracting := [0]
  lhsNonContracting := [0]
  rhsNonContracting := [1]
  lhsBatch := []
  rhsBatch := []
  wf := dot_S1x32_S32x16384_S1x16384_1_0_0_1_n_n_wf

abbrev win0_0 : Pipeline.Window sig grid0 :=
  Pipeline.Window.ofSpec (Memref.whole main_v0) S5x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S32x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S32x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S1x16384.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S524288x5 : Shape := ⟨2, ![524288, 5]⟩
abbrev S5 : Shape := ⟨1, ![5]⟩
abbrev S128x5 : Shape := ⟨2, ![128, 5]⟩
abbrev S128 : Shape := ⟨1, ![128]⟩
abbrev S32x128 : Shape := ⟨2, ![32, 128]⟩
abbrev S32 : Shape := ⟨1, ![32]⟩
abbrev S1x32 : Shape := ⟨2, ![1, 32]⟩
abbrev S1 : Shape := ⟨1, ![1]⟩
abbrev S1x5 : Shape := ⟨2, ![1, 5]⟩
abbrev S5x128 : Shape := ⟨2, ![5, 128]⟩
abbrev S524288x128 : Shape := ⟨2, ![524288, 128]⟩
abbrev S1x128 : Shape := ⟨2, ![1, 128]⟩
abbrev S_ : Shape := ⟨0, ![]⟩
abbrev S128x32 : Shape := ⟨2, ![128, 32]⟩
abbrev S524288x32 : Shape := ⟨2, ![524288, 32]⟩
abbrev S32x1 : Shape := ⟨2, ![32, 1]⟩
abbrev S524288x1 : Shape := ⟨2, ![524288, 1]⟩
abbrev S1x1 : Shape := ⟨2, ![1, 1]⟩
abbrev S524288 : Shape := ⟨1, ![524288]⟩

abbrev nBuf : Space → Nat
  | .hbm => 93
  | .vmem => 0
  | .smem => 0
  | _ => 0

abbrev bufTy : (tb : Table) → Fin (tcTables nBuf tb) → BufTy
  | .hbm, ⟨0, _⟩ => ⟨S524288x5, .f32⟩
  | .hbm, ⟨1, _⟩ => ⟨S5, .f32⟩
  | .hbm, ⟨2, _⟩ => ⟨S5, .f32⟩
  | .hbm, ⟨3, _⟩ => ⟨S128x5, .f32⟩
  | .hbm, ⟨4, _⟩ => ⟨S128, .f32⟩
  | .hbm, ⟨5, _⟩ => ⟨S32x128, .f32⟩
  | .hbm, ⟨6, _⟩ => ⟨S32, .f32⟩
  | .hbm, ⟨7, _⟩ => ⟨S32x128, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S1x32, .f32⟩
  | .hbm, ⟨12, _⟩ => ⟨S1, .f32⟩
  | .hbm, ⟨13, _⟩ => ⟨S1x5, .f32⟩
  | .hbm, ⟨14, _⟩ => ⟨S524288x5, .f32⟩
  | .hbm, ⟨15, _⟩ => ⟨S524288x5, .f32⟩
  | .hbm, ⟨16, _⟩ => ⟨S1x5, .f32⟩
  | .hbm, ⟨17, _⟩ => ⟨S524288x5, .f32⟩
  | .hbm, ⟨18, _⟩ => ⟨S524288x5, .f32⟩
  | .hbm, ⟨19, _⟩ => ⟨S5x128, .f32⟩
  | .hbm, ⟨20, _⟩ => ⟨S524288x128, .f32⟩
  | .hbm, ⟨21, _⟩ => ⟨S1x128, .f32⟩
  | .hbm, ⟨22, _⟩ => ⟨S524288x128, .f32⟩
  | .hbm, ⟨23, _⟩ => ⟨S524288x128, .f32⟩
  | .hbm, ⟨24, _⟩ => ⟨S_, .f32⟩
  | .hbm, ⟨25, _⟩ => ⟨S524288x128, .f32⟩
  | .hbm, ⟨26, _⟩ => ⟨S524288x128, .f32⟩
  | .hbm, ⟨27, _⟩ => ⟨S128x32, .f32⟩
  | .hbm, ⟨28, _⟩ => ⟨S524288x32, .f32⟩
  | .hbm, ⟨29, _⟩ => ⟨S1x32, .f32⟩
  | .hbm, ⟨30, _⟩ => ⟨S524288x32, .f32⟩
  | .hbm, ⟨31, _⟩ => ⟨S524288x32, .f32⟩
  | .hbm, ⟨32, _⟩ => ⟨S_, .f32⟩
  | .hbm, ⟨33, _⟩ => ⟨S524288x32, .f32⟩
  | .hbm, ⟨34, _⟩ => ⟨S524288x32, .f32⟩
  | .hbm, ⟨35, _⟩ => ⟨S128x32, .f32⟩
  | .hbm, ⟨36, _⟩ => ⟨S524288x32, .f32⟩
  | .hbm, ⟨37, _⟩ => ⟨S1x32, .f32⟩
  | .hbm, ⟨38, _⟩ => ⟨S524288x32, .f32⟩
  | .hbm, ⟨39, _⟩ => ⟨S524288x32, .f32⟩
  | .hbm, ⟨40, _⟩ => ⟨S_, .f32⟩
  | .hbm, ⟨41, _⟩ => ⟨S524288x32, .f32⟩
  | .hbm, ⟨42, _⟩ => ⟨S524288x32, .f32⟩
  | .hbm, ⟨43, _⟩ => ⟨S32x1, .f32⟩
  | .hbm, ⟨44, _⟩ => ⟨S524288x1, .f32⟩
  | .hbm, ⟨45, _⟩ => ⟨S1x1, .f32⟩
  | .hbm, ⟨46, _⟩ => ⟨S524288x1, .f32⟩
  | .hbm, ⟨47, _⟩ => ⟨S524288x1, .f32⟩
  | .hbm, ⟨48, _⟩ => ⟨S32x1, .f32⟩
  | .hbm, ⟨49, _⟩ => ⟨S524288x1, .f32⟩
  | .hbm, ⟨50, _⟩ => ⟨S1x1, .f32⟩
  | .hbm, ⟨51, _⟩ => ⟨S524288x1, .f32⟩
  | .hbm, ⟨52, _⟩ => ⟨S524288x1, .f32⟩
  | .hbm, ⟨53, _⟩ => ⟨S524288x1, .f32⟩
  | .hbm, ⟨54, _⟩ => ⟨S524288x1, .f32⟩
  | .hbm, ⟨55, _⟩ => ⟨S_, .f32⟩
  | .hbm, ⟨56, _⟩ => ⟨S524288x1, .f32⟩
  | .hbm, ⟨57, _⟩ => ⟨S524288x1, .f32⟩
  | .hbm, ⟨58, _⟩ => ⟨S_, .f32⟩
  | .hbm, ⟨59, _⟩ => ⟨S524288x1, .f32⟩
  | .hbm, ⟨60, _⟩ => ⟨S524288x1, .f32⟩
  | .hbm, ⟨61, _⟩ => ⟨S_, .f32⟩
  | .hbm, ⟨62, _⟩ => ⟨S524288x1, .f32⟩
  | .hbm, ⟨63, _⟩ => ⟨S524288x1, .f32⟩
  | .hbm, ⟨64, _⟩ => ⟨S524288x1, .f32⟩
  | .hbm, ⟨65, _⟩ => ⟨S524288, .f32⟩
  | .hbm, ⟨66, _⟩ => ⟨S524288x1, .f32⟩
  | .hbm, ⟨67, _⟩ => ⟨S524288, .f32⟩
  | .hbm, ⟨68, _⟩ => ⟨S524288, .f32⟩
  | .hbm, ⟨69, _⟩ => ⟨S524288x1, .f32⟩
  | .hbm, ⟨70, _⟩ => ⟨S524288x1, .f32⟩
  | .hbm, ⟨71, _⟩ => ⟨S524288, .f32⟩
  | .hbm, ⟨72, _⟩ => ⟨S524288x1, .f32⟩
  | .hbm, ⟨73, _⟩ => ⟨S524288, .f32⟩
  | .hbm, ⟨74, _⟩ => ⟨S524288, .f32⟩
  | .hbm, ⟨75, _⟩ => ⟨S524288x1, .f32⟩
  | .hbm, ⟨76, _⟩ => ⟨S524288, .f32⟩
  | .hbm, ⟨77, _⟩ => ⟨S_, .f32⟩
  | .hbm, ⟨78, _⟩ => ⟨S524288, .f32⟩
  | .hbm, ⟨79, _⟩ => ⟨S524288, .f32⟩
  | .hbm, ⟨80, _⟩ => ⟨S524288, .f32⟩
  | .hbm, ⟨81, _⟩ => ⟨S524288x1, .f32⟩
  | .hbm, ⟨82, _⟩ => ⟨S524288x1, .f32⟩
  | .hbm, ⟨83, _⟩ => ⟨S524288x1, .f32⟩
  | .hbm, ⟨84, _⟩ => ⟨S524288x1, .f32⟩
  | .hbm, ⟨85, _⟩ => ⟨S_, .f32⟩
  | .hbm, ⟨86, _⟩ => ⟨S524288x1, .f32⟩
  | .hbm, ⟨87, _⟩ => ⟨S524288x1, .f32⟩
  | .hbm, ⟨88, _⟩ => ⟨S524288x1, .i1⟩
  | .hbm, ⟨89, _⟩ => ⟨S_, .f32⟩
  | .hbm, ⟨90, _⟩ => ⟨S524288x1, .f32⟩
  | .hbm, ⟨91, _⟩ => ⟨S524288x1, .f32⟩
  | .hbm, ⟨92, _⟩ => ⟨S524288x1, .f32⟩
  | _, _ => ⟨S524288x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call0_cst : Ref sig .tc := ⟨.hbm, 24, rfl⟩
abbrev main_call0_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call1_cst : Ref sig .tc := ⟨.hbm, 32, rfl⟩
abbrev main_call1_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call2_cst : Ref sig .tc := ⟨.hbm, 40, rfl⟩
abbrev main_call2_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst : Ref sig .tc := ⟨.hbm, 55, rfl⟩
abbrev main_v36 : Ref sig .tc := ⟨.hbm, 56, rfl⟩
abbrev main_v37 : Ref sig .tc := ⟨.hbm, 57, rfl⟩
abbrev main_cst_0 : Ref sig .tc := ⟨.hbm, 58, rfl⟩
abbrev main_v38 : Ref sig .tc := ⟨.hbm, 59, rfl⟩
abbrev main_v39 : Ref sig .tc := ⟨.hbm, 60, rfl⟩
abbrev main_cst_1 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_2 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_3 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_4 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  bcast_S5_S1x5_1 : S5.BroadcastsInDim S1x5 (![1] : Fin 1 → Fin S1x5.rank)
  bcast_S1x5_S524288x5_0_1 : S1x5.BroadcastsInDim S524288x5 (![0, 1] : Fin 2 → Fin S524288x5.rank)
  transposes_S128x5_S5x128_1_0 : S128x5.Transposes [1, 0] S5x128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  transposes_S32x128_S128x32_1_0 : S32x128.Transposes [1, 0] S128x32
  bcast_S32_S1x32_1 : S32.BroadcastsInDim S1x32 (![1] : Fin 1 → Fin S1x32.rank)
  bcast_S1x32_S524288x32_0_1 : S1x32.BroadcastsInDim S524288x32 (![0, 1] : Fin 2 → Fin S524288x32.rank)
  bcast_S_S524288x32 : S_.BroadcastsInDim S524288x32 (![] : Fin 0 → Fin S524288x32.rank)
  transposes_S1x32_S32x1_1_0 : S1x32.Transposes [1, 0] S32x1
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  bcast_S_S524288x1 : S_.BroadcastsInDim S524288x1 (![] : Fin 0 → Fin S524288x1.rank)
  slices_S524288x5_S524288x1_0_1 : S524288x5.Slices ![0, 1] S524288x1
  shapeCasts_S524288x1_S524288 : S524288x1.ShapeCasts S524288
  slices_S524288x5_S524288x1_0_3 : S524288x5.Slices ![0, 3] S524288x1
  bcast_S524288_S524288x1_0 : S524288.BroadcastsInDim S524288x1 (![0] : Fin 1 → Fin S524288x1.rank)
  slices_S524288x5_S524288x1_0_0 : S524288x5.Slices ![0, 0] S524288x1
  slices_S524288x5_S524288x1_0_2 : S524288x5.Slices ![0, 2] S524288x1
  bcast_S_S524288 : S_.BroadcastsInDim S524288 (![] : Fin 0 → Fin S524288.rank)
  dot_S524288x5_S5x128_S524288x128_1_0_0_1_n_n_wf : DotDims.WF S524288x5 S5x128 S524288x128 [1] [0] [0] [1] [] []
  dot_S524288x128_S128x32_S524288x32_1_0_0_1_n_n_wf : DotDims.WF S524288x128 S128x32 S524288x32 [1] [0] [0] [1] [] []
  dot_S524288x32_S32x1_S524288x1_1_0_0_1_n_n_wf : DotDims.WF S524288x32 S32x1 S524288x1 [1] [0] [0] [1] [] []

variable [Facts₀]

def dot_S524288x5_S5x128_S524288x128_1_0_0_1_n_n : DotDims S524288x5 S5x128 S524288x128 where
  lhsContracting := [1]
  rhsContracting := [0]
  lhsNonContracting := [0]
  rhsNonContracting := [1]
  lhsBatch := []
  rhsBatch := []
  wf := dot_S524288x5_S5x128_S524288x128_1_0_0_1_n_n_wf
def dot_S524288x128_S128x32_S524288x32_1_0_0_1_n_n : DotDims S524288x128 S128x32 S524288x32 where
  lhsContracting := [1]
  rhsContracting := [0]
  lhsNonContracting := [0]
  rhsNonContracting := [1]
  lhsBatch := []
  rhsBatch := []
  wf := dot_S524288x128_S128x32_S524288x32_1_0_0_1_n_n_wf
def dot_S524288x32_S32x1_S524288x1_1_0_0_1_n_n : DotDims S524288x32 S32x1 S524288x1 where
  lhsContracting := [1]
  rhsContracting := [0]
  lhsNonContracting := [0]
  rhsNonContracting := [1]
  lhsBatch := []
  rhsBatch := []
  wf := dot_S524288x32_S32x1_S524288x1_1_0_0_1_n_n_wf

class Facts : Prop extends Facts₀ where

variable [Facts]
-- ==== Proof.RowSpec.lean ====
/-
  One row of the batch, over the extended reals.

  A row x ∈ ℝ̄⁵ goes through a small network and a one-constraint quadratic program solved in closed form:
    h₁  = max(x·W₁ᵀ + b₁, 0)                      (128 hidden units)
    p   = max(h₁·W₂₁ᵀ + b₂₁, 0)·W₃₁ᵀ + b₃₁         (the program's linear term)
    s   = 4 · logistic(max(h₁·W₂₂ᵀ + b₂₂, 0)·W₃₂ᵀ + b₃₂)   (the learned penalty)
    x⁰  = x ⊙ std + mean                           (the de-normalised state)
    h   = (x⁰₁ − x⁰₃) + s · ((x⁰₀ − x⁰₂) − 1.8·x⁰₃)
    u   = −p  if 1.8·(−p) ≤ h,  else  h / 1.8.
  `out` is that function.  Every sum is written with the row entry on the left of each product; the three small laws
  below are the only differences between the two programs' spellings of it: the order of the factors under a sum,
  negation written as a difference from zero, and the logistic function written out as 1 / (1 + e^(−z)).
-/
import Idealize.ShloMosaic.PureOps.Ideal.Laws
import Idealize.ShloMosaic.Lib.IdealHost

noncomputable section

namespace Cert.RowSpec

open Idealize.ShloMosaic

/-- The f32 words of 0, 1, 4 and 1.8 as the extended reals they denote.  The same words occur on both sides, so
    only 0 and 1 are ever evaluated. -/
abbrev zero : EReal := Ideal.ofBits .f32 0x00000000#32
abbrev one : EReal := Ideal.ofBits .f32 0x3F800000#32
abbrev four : EReal := Ideal.ofBits .f32 0x40800000#32
abbrev c18 : EReal := Ideal.ofBits .f32 0x3FE66666#32

/-- Entry `j` of one affine layer `x·Wᵀ + b`. -/
def affine {n k : ℕ} (x : Fin k → EReal) (W : Fin n → Fin k → EReal) (b : Fin n → EReal) (j : Fin n) : EReal :=
  (∑ i : Fin k, x i * W j i) + b j

/-- An affine layer followed by the rectifier. -/
def layer {n k : ℕ} (x : Fin k → EReal) (W : Fin n → Fin k → EReal) (b : Fin n → EReal) (j : Fin n) : EReal :=
  max (affine x W b j) zero

/-- The quadratic program's closed form from the de-normalised state `x0`, the linear term `p` and the penalty's
    pre-activation `z`: the unconstrained minimiser `−p` where it satisfies `1.8·u ≤ h`, the boundary `h / 1.8` otherwise. -/
def solve (x0 : Fin 5 → EReal) (p z : EReal) : EReal :=
  Scalar.select
    (Ideal.cmp .ole (c18 * (-p)) ((x0 1 - x0 3) + four * Ideal.logistic z * ((x0 0 - x0 2) - c18 * x0 3)))
    (-p)
    (Ideal.div ((x0 1 - x0 3) + four * Ideal.logistic z * ((x0 0 - x0 2) - c18 * x0 3)) c18)

/-- The closed-form solution for one row. -/
def out (x mean std : Fin 5 → EReal) (W1 : Fin 128 → Fin 5 → EReal) (b1 : Fin 128 → EReal)
    (W21 : Fin 32 → Fin 128 → EReal) (b21 : Fin 32 → EReal) (W22 : Fin 32 → Fin 128 → EReal) (b22 : Fin 32 → EReal)
    (W31 : Fin 1 → Fin 32 → EReal) (b31 : Fin 1 → EReal) (W32 : Fin 1 → Fin 32 → EReal) (b32 : Fin 1 → EReal) : EReal :=
  solve (fun k => x k * std k + mean k)
    (affine (layer (layer x W1 b1) W21 b21) W31 b31 0)
    (affine (layer (layer x W1 b1) W22 b22) W32 b32 0)

/-- The factors of each product of an affine layer may be written in either order: multiplication of extended reals
    commutes. -/
theorem affine_swap {n k : ℕ} (x : Fin k → EReal) (W : Fin n → Fin k → EReal) (b : Fin n → EReal) (j : Fin n) :
    (∑ i : Fin k, W j i * x i) + b j = affine x W b j :=
  congrArg (· + b j) (Finset.sum_congr rfl fun i _ => mul_comm (W j i) (x i))

/-- A difference from zero is the negation. -/
theorem zero_sub_eq_neg (z : EReal) : zero - z = -z := by
  rw [show zero = 0 from Ideal.ofBits_zero_f32, zero_sub]

/-- The logistic function written out as a quotient. -/
theorem logistic_quotient (z : EReal) : Ideal.div one (one + Ideal.exp (-z)) = Ideal.logistic z := by
  rw [show one = 1 from Ideal.ofBits_one_f32]; rfl

end Cert.RowSpec

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.LibKeepdims.lean ====
/-
  Rank-2 vectors with a kept column, read at an index: the cast of a length-`a` vector to a column [a, 1], the
  broadcast of a column [a, 1] along the rows of [a, b], and the sum and the maximum of each row of an [a, b]
  vector over the extended reals.  Each says which ONE operand entry (or which row of entries) a result entry reads.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type} {a b : ℕ}

/-- Entry `(n, 0)` of the column cast of a vector is the vector's entry `n`: both sit at row-major position `n`. -/
theorem shapeCast_col_apply (x : (⟨1, ![a]⟩ : Shape).Idx → α) (h : (⟨1, ![a]⟩ : Shape).ShapeCasts ⟨2, ![a, 1]⟩) (n : Fin a) :
    shapeCast ⟨2, ![a, 1]⟩ x h (ix2 n (0 : Fin 1)) = x (ix1 n) :=
  shapeCast_apply x h (ix2 n (0 : Fin 1)) (ix1 n) (by
    rw [Shape.rowMajor_val_one, Shape.rowMajor_val_two]
    show n.val = n.val * 1 + 0
    omega)

/-- Entry `(n, d)` of a column broadcast along the rows is the column's entry `(n, 0)`. -/
theorem broadcastTo_col_apply (x : (⟨2, ![a, 1]⟩ : Shape).Idx → α) (h : (⟨2, ![a, 1]⟩ : Shape).Broadcasts ⟨2, ![a, b]⟩)
    (n : Fin a) (d : Fin b) : broadcastTo ⟨2, ![a, b]⟩ x h (ix2 n d) = x (ix2 n (0 : Fin 1)) :=
  broadcastTo_apply x h (ix2 n d) (ix2 n (0 : Fin 1)) (fun k => by
    match k with
    | ⟨0, _⟩ =>
      show n.val = if a = 1 then 0 else n.val
      have := n.isLt
      split <;> omega
    | ⟨1, _⟩ => rfl)

/-- The reduced index `n` of a row reduction with the column `k` put back is `(n, k)`. -/
theorem lift_row (h : (⟨2, ![a, b]⟩ : Shape).Reduces [1] ⟨1, ![a]⟩) (n : Fin a) (k : Fin b) :
    h.lift (ix1 n) k = ix2 n k := by
  funext c; apply Fin.ext
  fin_cases c <;> rfl

variable {φ : FTy}

/-- A row sum at row `n` is the sum of that row's entries. -/
theorem rowsum_apply (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (n : Fin a) :
    multiReduction .add [1] ⟨1, ![a]⟩ src acc h hφ hacc (ix1 n) = ∑ k : Fin b, src (ix2 n k) :=
  (Ideal.multiReduction_add_single src acc h hφ hacc (ix1 n)).trans
    (Finset.sum_congr rfl fun k _ => congrArg src (lift_row h n k))

/-- A row maximum at row `n` is the fold of `max` over that row's entries from the accumulator's value. -/
theorem rowmax_apply (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (n : Fin a) :
    multiReduction .maximumf [1] ⟨1, ![a]⟩ src acc h hφ hacc (ix1 n)
      = (Finset.univ : Finset (Fin b)).fold max (Ideal.ofBits φ acc) (fun k => src (ix2 n k)) :=
  (Ideal.multiReduction_maximumf_single src acc h hφ hacc (ix1 n)).trans
    (congrArg (fun f => (Finset.univ : Finset (Fin b)).fold max (Ideal.ofBits φ acc) f)
      (funext fun k => congrArg src (lift_row h n k)))

end Cert.LibKeepdims

end
-- ==== Proof.Lane.lean ====
/-
  The kernel's body on one lane.

  A grid point holds a [5, 16384] block of the transposed input (features down the rows, batch entries along the
  lanes) and the whole weight matrices and bias columns.  Every operation of the body is lane-wise, or a matrix
  product contracting the feature axis, or a bias column spread along the lanes; so lane `q` of what the body stores
  depends on column `q` of the input block alone, and is `RowSpec.out` of that column.  The lemmas below read each of the
  body's intermediate values at one entry and end with that statement (`body_lane`).
-/
import proofs.«154434_j31104153158091_2_alg».proof.Proof.Gen.KernelIdeal.Skeleton
import proofs.«154434_j31104153158091_2_alg».proof.Proof.RowSpec
import proofs.«154434_j31104153158091_2_alg».proof.Proof.LibRowOps
import proofs.«154434_j31104153158091_2_alg».proof.Proof.LibKeepdims
import Idealize.ShloMosaic.Lib.Pipeline.Value
import Idealize.ShloMosaic.Lib.ValueIdx

noncomputable section

namespace Cert.KernelIdeal.Lane

open Idealize.ShloMosaic Idealize.ShloMosaic.TcCoe Idealize.ShloMosaic.ValueIdx
open Cert.KernelIdeal Cert.KernelIdeal.Gen Cert.RowSpec

/-! ## The three matrix products, each entry a sum over the contracted feature axis -/

theorem mm_hidden (A : FVec Ideal S128x5 .bf16) (B : FVec Ideal S5x16384 .bf16) (j : Fin 128) (q : Fin 16384) :
    matmul dot_S128x5_S5x16384_S128x16384_1_0_0_1_n_n none A B (constant (F := Ideal) S128x16384 .f32 0x00000000#32) (ix2 j q)
      = ∑ i : Fin 5, A (ix2 j i) * B (ix2 i q) :=
  Cert.KernelBody.matmul_plain_zero_apply dot_S128x5_S5x16384_S128x16384_1_0_0_1_n_n_wf none A B j q

theorem mm_branch (A : FVec Ideal S32x128 .bf16) (B : FVec Ideal S128x16384 .bf16) (i : Fin 32) (q : Fin 16384) :
    matmul dot_S32x128_S128x16384_S32x16384_1_0_0_1_n_n none A B (constant (F := Ideal) S32x16384 .f32 0x00000000#32) (ix2 i q)
      = ∑ j : Fin 128, A (ix2 i j) * B (ix2 j q) :=
  Cert.KernelBody.matmul_plain_zero_apply dot_S32x128_S128x16384_S32x16384_1_0_0_1_n_n_wf none A B i q

theorem mm_head (A : FVec Ideal S1x32 .bf16) (B : FVec Ideal S32x16384 .bf16) (o : Fin 1) (q : Fin 16384) :
    matmul dot_S1x32_S32x16384_S1x16384_1_0_0_1_n_n none A B (constant (F := Ideal) S1x16384 .f32 0x00000000#32) (ix2 o q)
      = ∑ i : Fin 32, A (ix2 o i) * B (ix2 i q) :=
  Cert.KernelBody.matmul_plain_zero_apply dot_S1x32_S32x16384_S1x16384_1_0_0_1_n_n_wf none A B o q

/-! ## The body's intermediate values at one entry -/

/-- The de-normalised state: feature `k` of lane `q` scaled by `std k` and shifted by `mean k`. -/
theorem denorm_apply (X : Vec Ideal S5x16384 .f32) (mn sd : Vec Ideal S5x1 .f32) (k : Fin 5) (q : Fin 16384) :
    k0_pay2 (F := Ideal) X mn sd (ix2 k q) = X (ix2 k q) * sd (ix2 k 0) + mn (ix2 k 0) := by
  unfold k0_pay2 k0_pay1
  dsimp only
  rw [shapeCast_self, shapeCast_self, shapeCast_self]
  show X (ix2 k q) * broadcastTo S5x16384 sd broadcasts_S5x1_S5x16384 (ix2 k q)
      + broadcastTo S5x16384 mn broadcasts_S5x1_S5x16384 (ix2 k q) = _
  rw [Cert.LibKeepdims.broadcastTo_col_apply, Cert.LibKeepdims.broadcastTo_col_apply]

/-- The hidden layer: unit `j` on lane `q`. -/
theorem hidden_apply (X : Vec Ideal S5x16384 .f32) (W1 : Vec Ideal S128x5 .f32) (b1 : Vec Ideal S128x1 .f32)
    (j : Fin 128) (q : Fin 16384) :
    k0_pay3 (F := Ideal) X W1 b1 (ix2 j q)
      = layer (fun k => X (ix2 k q)) (fun j k => W1 (ix2 j k)) (fun j => b1 (ix2 j 0)) j := by
  unfold k0_pay3 k0_pay1
  dsimp only
  rw [shapeCast_self, shapeCast_self]
  show max (matmul dot_S128x5_S5x16384_S128x16384_1_0_0_1_n_n none (truncf .bf16 W1 bitsLt_bf16_f32)
        (truncf .bf16 X bitsLt_bf16_f32) (constant (F := Ideal) S128x16384 .f32 0x00000000#32) (ix2 j q)
      + broadcastTo S128x16384 b1 broadcasts_S128x1_S128x16384 (ix2 j q)) zero = _
  rw [mm_hidden, Cert.LibKeepdims.broadcastTo_col_apply]
  exact congrArg (max · zero) (affine_swap (fun k => X (ix2 k q)) (fun j k => W1 (ix2 j k)) (fun j => b1 (ix2 j 0)) j)

/-- The first branch's layer over the hidden layer: unit `i` on lane `q`. -/
theorem branchP_apply (X : Vec Ideal S5x16384 .f32) (W1 : Vec Ideal S128x5 .f32) (b1 : Vec Ideal S128x1 .f32)
    (W21 : Vec Ideal S32x128 .f32) (b21 : Vec Ideal S32x1 .f32) (i : Fin 32) (q : Fin 16384) :
    k0_pay4 (F := Ideal) X W1 b1 W21 b21 (ix2 i q)
      = layer (fun j => k0_pay3 (F := Ideal) X W1 b1 (ix2 j q)) (fun i j => W21 (ix2 i j)) (fun i => b21 (ix2 i 0)) i := by
  unfold k0_pay4
  rw [shapeCast_self]
  show max (matmul dot_S32x128_S128x16384_S32x16384_1_0_0_1_n_n none (truncf .bf16 W21 bitsLt_bf16_f32)
        (k0_pay3 (F := Ideal) X W1 b1) (constant (F := Ideal) S32x16384 .f32 0x00000000#32) (ix2 i q)
      + broadcastTo S32x16384 b21 broadcasts_S32x1_S32x16384 (ix2 i q)) zero = _
  rw [mm_branch, Cert.LibKeepdims.broadcastTo_col_apply]
  exact congrArg (max · zero) (affine_swap (fun j => k0_pay3 (F := Ideal) X W1 b1 (ix2 j q)) (fun i j => W21 (ix2 i j))
    (fun i => b21 (ix2 i 0)) i)

/-- The second branch's product, before its bias: unit `i` on lane `q`. -/
theorem branchS_apply (X : Vec Ideal S5x16384 .f32) (W1 : Vec Ideal S128x5 .f32) (b1 : Vec Ideal S128x1 .f32)
    (W22 : Vec Ideal S32x128 .f32) (i : Fin 32) (q : Fin 16384) :
    k0_pay5 (F := Ideal) X W1 b1 W22 (ix2 i q) = ∑ j : Fin 128, W22 (ix2 i j) * k0_pay3 (F := Ideal) X W1 b1 (ix2 j q) := by
  unfold k0_pay5
  exact mm_branch (truncf .bf16 W22 bitsLt_bf16_f32) (k0_pay3 (F := Ideal) X W1 b1) i q

/-- The second branch's bias column spread along the lanes. -/
theorem biasS_apply (b22 : Vec Ideal S32x1 .f32) (i : Fin 32) (q : Fin 16384) :
    k0_pay6 (F := Ideal) b22 (ix2 i q) = b22 (ix2 i 0) := by
  unfold k0_pay6
  rw [shapeCast_self]
  exact Cert.LibKeepdims.broadcastTo_col_apply b22 broadcasts_S32x1_S32x16384 i q

/-! ## The closed form on one lane -/

/-- Row `r` of a [5, 16384] value taken as a [1, 16384] slice, read on lane `q`. -/
theorem slice_row0 (v : FVec Ideal S5x16384 .f32) (h : S5x16384.Slices ![0, 0] S1x16384) (q : Fin 16384) :
    extractStridedSlice S1x16384 ![0, 0] v h (ix2 (0 : Fin 1) q) = v (ix2 (0 : Fin 5) q) :=
  extractStridedSlice_apply _ v h (ix2 (0 : Fin 1) q) (ix2 (0 : Fin 5) q) (fun a => match a with
    | ⟨0, _⟩ => rfl
    | ⟨1, _⟩ => by show q.val = 0 + q.val; omega)
theorem slice_row1 (v : FVec Ideal S5x16384 .f32) (h : S5x16384.Slices ![1, 0] S1x16384) (q : Fin 16384) :
    extractStridedSlice S1x16384 ![1, 0] v h (ix2 (0 : Fin 1) q) = v (ix2 (1 : Fin 5) q) :=
  extractStridedSlice_apply _ v h (ix2 (0 : Fin 1) q) (ix2 (1 : Fin 5) q) (fun a => match a with
    | ⟨0, _⟩ => rfl
    | ⟨1, _⟩ => by show q.val = 0 + q.val; omega)
theorem slice_row2 (v : FVec Ideal S5x16384 .f32) (h : S5x16384.Slices ![2, 0] S1x16384) (q : Fin 16384) :
    extractStridedSlice S1x16384 ![2, 0] v h (ix2 (0 : Fin 1) q) = v (ix2 (2 : Fin 5) q) :=
  extractStridedSlice_apply _ v h (ix2 (0 : Fin 1) q) (ix2 (2 : Fin 5) q) (fun a => match a with
    | ⟨0, _⟩ => rfl
    | ⟨1, _⟩ => by show q.val = 0 + q.val; omega)
theorem slice_row3 (v : FVec Ideal S5x16384 .f32) (h : S5x16384.Slices ![3, 0] S1x16384) (q : Fin 16384) :
    extractStridedSlice S1x16384 ![3, 0] v h (ix2 (0 : Fin 1) q) = v (ix2 (3 : Fin 5) q) :=
  extractStridedSlice_apply _ v h (ix2 (0 : Fin 1) q) (ix2 (3 : Fin 5) q) (fun a => match a with
    | ⟨0, _⟩ => rfl
    | ⟨1, _⟩ => by show q.val = 0 + q.val; omega)

/-- The logistic function is applied lane by lane. -/
theorem logistic_apply {s : Shape} {φ : FTy} (a : FVec Ideal s φ) (i : s.Idx) : logistic a i = Ideal.logistic (a i) := rfl

/-- The body's last stage on lane `q`: the two heads are affine in the branch values of that lane, and the rest is
    the closed form `solve` of the lane's de-normalised state. -/
theorem solve_apply (v9 : FVec Ideal S5x16384 .f32) (v29 v32 v35 : FVec Ideal S32x16384 .f32)
    (W31 : Vec Ideal S1x32 .f32) (b31 : Vec Ideal S1x1 .f32) (W32 : Vec Ideal S1x32 .f32) (b32 : Vec Ideal S1x1 .f32)
    (q : Fin 16384) :
    k0_pay7 (F := Ideal) v9 v29 v32 v35 W31 b31 W32 b32 (ix2 (0 : Fin 1) q)
      = solve (fun k => v9 (ix2 k q))
          (affine (fun i => v29 (ix2 i q)) (fun o i => W31 (ix2 o i)) (fun o => b31 (ix2 o 0)) 0)
          (affine (fun i => max (v32 (ix2 i q) + v35 (ix2 i q)) zero) (fun o i => W32 (ix2 o i)) (fun o => b32 (ix2 o 0)) 0) := by
  unfold k0_pay7
  rw [shapeCast_self, shapeCast_self]
  dsimp only [select_apply, cmpf_apply, divf_apply, mulf_apply, addf_apply, subf_apply, maximumf_apply, broadcast_apply,
    truncf_apply, logistic_apply]
  rw [mm_head, mm_head, Cert.LibKeepdims.broadcastTo_col_apply, Cert.LibKeepdims.broadcastTo_col_apply,
    slice_row0, slice_row1, slice_row2, slice_row3]
  dsimp only [truncf_apply, maximumf_apply, addf_apply, broadcast_apply]
  simp only [Ideal.ofBits_def]
  rw [zero_sub_eq_neg]
  exact congrArg₂ (solve fun k => v9 (ix2 k q))
    (affine_swap (fun i => v29 (ix2 i q)) (fun o i => W31 (ix2 o i)) (fun o => b31 (ix2 o 0)) 0)
    (affine_swap (fun i => max (v32 (ix2 i q) + v35 (ix2 i q)) zero) (fun o i => W32 (ix2 o i)) (fun o => b32 (ix2 o 0)) 0)

/-- LANE `q` OF WHAT THE BODY STORES is `RowSpec.out` of column `q` of the input block and of the weights. -/
theorem body_lane (X : Vec Ideal S5x16384 .f32) (mn sd : Vec Ideal S5x1 .f32) (W1 : Vec Ideal S128x5 .f32)
    (b1 : Vec Ideal S128x1 .f32) (W21 : Vec Ideal S32x128 .f32) (b21 : Vec Ideal S32x1 .f32) (W22 : Vec Ideal S32x128 .f32)
    (b22 : Vec Ideal S32x1 .f32) (W31 : Vec Ideal S1x32 .f32) (b31 : Vec Ideal S1x1 .f32) (W32 : Vec Ideal S1x32 .f32)
    (b32 : Vec Ideal S1x1 .f32) (q : Fin 16384) :
    k0_pay7 (F := Ideal) (k0_pay2 X mn sd) (k0_pay4 X W1 b1 W21 b21) (k0_pay5 X W1 b1 W22) (k0_pay6 b22) W31 b31 W32 b32
        (ix2 (0 : Fin 1) q)
      = out (fun k => X (ix2 k q)) (fun k => mn (ix2 k 0)) (fun k => sd (ix2 k 0)) (fun j k => W1 (ix2 j k))
          (fun j => b1 (ix2 j 0)) (fun i j => W21 (ix2 i j)) (fun i => b21 (ix2 i 0)) (fun i j => W22 (ix2 i j))
          (fun i => b22 (ix2 i 0)) (fun o i => W31 (ix2 o i)) (fun o => b31 (ix2 o 0)) (fun o i => W32 (ix2 o i))
          (fun o => b32 (ix2 o 0)) := by
  rw [solve_apply]
  have hx : (fun k => k0_pay2 (F := Ideal) X mn sd (ix2 k q)) = fun k => X (ix2 k q) * sd (ix2 k 0) + mn (ix2 k 0) :=
    funext fun k => denorm_apply X mn sd k q
  have hh : (fun j => k0_pay3 (F := Ideal) X W1 b1 (ix2 j q))
      = layer (fun k => X (ix2 k q)) (fun j k => W1 (ix2 j k)) (fun j => b1 (ix2 j 0)) :=
    funext fun j => hidden_apply X W1 b1 j q
  have hp : (fun i => k0_pay4 (F := Ideal) X W1 b1 W21 b21 (ix2 i q))
      = layer (layer (fun k => X (ix2 k q)) (fun j k => W1 (ix2 j k)) (fun j => b1 (ix2 j 0))) (fun i j => W21 (ix2 i j))
          (fun i => b21 (ix2 i 0)) :=
    funext fun i => (branchP_apply X W1 b1 W21 b21 i q).trans (by rw [hh])
  have hs : (fun i => max (k0_pay5 (F := Ideal) X W1 b1 W22 (ix2 i q) + k0_pay6 (F := Ideal) b22 (ix2 i q)) zero)
      = layer (layer (fun k => X (ix2 k q)) (fun j k => W1 (ix2 j k)) (fun j => b1 (ix2 j 0))) (fun i j => W22 (ix2 i j))
          (fun i => b22 (ix2 i 0)) :=
    funext fun i => by
      rw [branchS_apply, biasS_apply, ← hh]
      exact congrArg (max · zero) (affine_swap (fun j => k0_pay3 (F := Ideal) X W1 b1 (ix2 j q)) (fun i j => W22 (ix2 i j))
        (fun i => b22 (ix2 i 0)) i)
  rw [hx, hp, hs]
  rfl

end Cert.KernelIdeal.Lane

end
-- ==== Proof.Whole.lean ====
/-
  From blocks to the array.

  The grid has 32 points.  Point `t` holds columns 16384·t … 16384·t + 16383 of the transposed input [5, 524288], the
  whole of every weight matrix and bias column (their block index is (0, 0) at every point), and writes columns
  16384·t … 16384·t + 16383 of the result row [1, 524288].  By the lane statement of the body, what point `t` writes
  back is block `t` of ONE function of the arrays the region finds, `lanes`: column `p` of the result row is
  `RowSpec.out` of column `p` of the transposed input.  The 32 blocks tile the row, so the row ends holding `lanes`.
-/
import proofs.«154434_j31104153158091_2_alg».proof.Proof.Gen.KernelIdeal.Frame
import proofs.«154434_j31104153158091_2_alg».proof.Proof.Lane
import Idealize.ShloMosaic.Lib.Pipeline.Value

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen Cert.RowSpec

variable (m : (ℓ : Loc nD τ sig) → Buf (Elt Ideal) ℓ) (ρ : Dev nD → PrngReg)

theorem hz : (![0, 0] : Fin 2 → Nat) = fun _ => 0 := funext fun a => by fin_cases a <;> rfl

/-- The result row as a function of the arrays the region finds: column `p` is the closed form of column `p` of the
    transposed input, with the weights read by (unit, feature) and the bias columns by unit. -/
def lanes (XT : S5x524288.Idx → Elt Ideal .f32) (mn sd : S5x1.Idx → Elt Ideal .f32) (W1 : S128x5.Idx → Elt Ideal .f32)
    (b1 : S128x1.Idx → Elt Ideal .f32) (W21 : S32x128.Idx → Elt Ideal .f32) (b21 : S32x1.Idx → Elt Ideal .f32)
    (W22 : S32x128.Idx → Elt Ideal .f32) (b22 : S32x1.Idx → Elt Ideal .f32) (W31 : S1x32.Idx → Elt Ideal .f32)
    (b31 : S1x1.Idx → Elt Ideal .f32) (W32 : S1x32.Idx → Elt Ideal .f32) (b32 : S1x1.Idx → Elt Ideal .f32) :
    S1x524288.Idx → Elt Ideal .f32 :=
  fun i => out (fun k => XT (ix2 k (i 1 : Fin 524288))) (fun k => mn (ix2 k 0)) (fun k => sd (ix2 k 0))
    (fun j k => W1 (ix2 j k)) (fun j => b1 (ix2 j 0)) (fun i j => W21 (ix2 i j)) (fun i => b21 (ix2 i 0))
    (fun i j => W22 (ix2 i j)) (fun i => b22 (ix2 i 0)) (fun o i => W31 (ix2 o i)) (fun o => b31 (ix2 o 0))
    (fun o i => W32 (ix2 o i)) (fun o => b32 (ix2 o 0))

/-- One block of the body's result is the matching block of `lanes`, once each loaded block is known to be the
    matching part of its array: the input block a run of columns (`hX`), every other block its whole array. -/
theorem body_block (X : Vec Ideal S5x16384 .f32) (mn sd : Vec Ideal S5x1 .f32) (W1 : Vec Ideal S128x5 .f32)
    (b1 : Vec Ideal S128x1 .f32) (W21 : Vec Ideal S32x128 .f32) (b21 : Vec Ideal S32x1 .f32) (W22 : Vec Ideal S32x128 .f32)
    (b22 : Vec Ideal S32x1 .f32) (W31 : Vec Ideal S1x32 .f32) (b31 : Vec Ideal S1x1 .f32) (W32 : Vec Ideal S1x32 .f32)
    (b32 : Vec Ideal S1x1 .f32)
    (XT : S5x524288.Idx → Elt Ideal .f32) (MN SD : S5x1.Idx → Elt Ideal .f32) (A1 : S128x5.Idx → Elt Ideal .f32)
    (B1 : S128x1.Idx → Elt Ideal .f32) (A21 : S32x128.Idx → Elt Ideal .f32) (B21 : S32x1.Idx → Elt Ideal .f32)
    (A22 : S32x128.Idx → Elt Ideal .f32) (B22 : S32x1.Idx → Elt Ideal .f32) (A31 : S1x32.Idx → Elt Ideal .f32)
    (B31 : S1x1.Idx → Elt Ideal .f32) (A32 : S1x32.Idx → Elt Ideal .f32) (B32 : S1x1.Idx → Elt Ideal .f32)
    (y : S1x16384.Idx) (i : S1x524288.Idx)
    (hX : ∀ k : Fin 5, X (ix2 k (y 1 : Fin 16384)) = XT (ix2 k (i 1 : Fin 524288)))
    (hmn : ∀ j, mn j = MN j) (hsd : ∀ j, sd j = SD j) (hW1 : ∀ j, W1 j = A1 j) (hb1 : ∀ j, b1 j = B1 j)
    (hW21 : ∀ j, W21 j = A21 j) (hb21 : ∀ j, b21 j = B21 j) (hW22 : ∀ j, W22 j = A22 j) (hb22 : ∀ j, b22 j = B22 j)
    (hW31 : ∀ j, W31 j = A31 j) (hb31 : ∀ j, b31 j = B31 j) (hW32 : ∀ j, W32 j = A32 j) (hb32 : ∀ j, b32 j = B32 j) :
    k0_pay7 (F := Ideal) (k0_pay2 X mn sd) (k0_pay4 X W1 b1 W21 b21) (k0_pay5 X W1 b1 W22) (k0_pay6 b22) W31 b31 W32 b32 y
      = lanes XT MN SD A1 B1 A21 B21 A22 B22 A31 B31 A32 B32 i := by
  obtain rfl : mn = MN := funext hmn
  obtain rfl : sd = SD := funext hsd
  obtain rfl : W1 = A1 := funext hW1
  obtain rfl : b1 = B1 := funext hb1
  obtain rfl : W21 = A21 := funext hW21
  obtain rfl : b21 = B21 := funext hb21
  obtain rfl : W22 = A22 := funext hW22
  obtain rfl : b22 = B22 := funext hb22
  obtain rfl : W31 = A31 := funext hW31
  obtain rfl : b31 = B31 := funext hb31
  obtain rfl : W32 = A32 := funext hW32
  obtain rfl : b32 = B32 := funext hb32
  obtain ⟨o, q, rfl⟩ : ∃ (o : Fin 1) (q : Fin 16384), y = ix2 o q := ⟨y 0, y 1, eq_ix2 y⟩
  obtain rfl : o = 0 := Subsingleton.elim _ _
  rw [Cert.KernelIdeal.Lane.body_lane]
  unfold lanes
  exact congrArg (fun x => out x (fun k => mn (ix2 k 0)) (fun k => sd (ix2 k 0)) (fun j k => W1 (ix2 j k))
    (fun j => b1 (ix2 j 0)) (fun i j => W21 (ix2 i j)) (fun i => b21 (ix2 i 0)) (fun i j => W22 (ix2 i j))
    (fun i => b22 (ix2 i 0)) (fun o i => W31 (ix2 o i)) (fun o => b31 (ix2 o 0)) (fun o i => W32 (ix2 o i))
    (fun o => b32 (ix2 o 0))) (funext hX)

/-! ## The printed index maps, decided over the 32 points -/

/-- The input's and the result's block index at point `t` is (0, t). -/
theorem idx_moving : ∀ t : Fin cfg0.N, win0_0.index t (0 : Fin 2) = 0 ∧ win0_0.index t (1 : Fin 2) = t.val
    ∧ win0_13.index t (0 : Fin 2) = 0 ∧ win0_13.index t (1 : Fin 2) = t.val :=
  (by decide +kernel : ∀ t : Fin grid0.N, _)

/-- Every weight and bias window's block index is (0, 0) at every point. -/
theorem idx_resident : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-! ## Each loaded block as part of its array -/

/-- Column `y 1` of the input block at point `t` is the column of the transposed input under the same lane of the
    result's block. -/
theorem blk_input (c : Dev nD) (t : Fin cfg0.N) (y : S1x16384.Idx) (k : Fin 5) :
    (iblk m c 0 t : Vec Ideal S5x16384 .f32) (ix2 k (y 1 : Fin 16384))
      = (V m c main_v0 : S5x524288.Idx → Elt Ideal .f32)
          (ix2 k ((((cfg0.win 13).blk t).view.emb y : S1x524288.Idx) 1 : Fin 524288)) := by
  obtain ⟨e0, e1, e2, e3⟩ := idx_moving t
  show V m c main_v0 (((cfg0.win 0).blk t).view.emb (ix2 k (y 1 : Fin 16384))) = V m c main_v0 _
  refine congrArg (V m c main_v0) (funext fun a => Fin.ext ?_)
  match a with
  | ⟨0, _⟩ => show win0_0.index t (0 : Fin 2) * 5 + 1 * k.val = k.val; omega
  | ⟨1, _⟩ =>
    show win0_0.index t (1 : Fin 2) * 16384 + 1 * (y 1).val = win0_13.index t (1 : Fin 2) * 16384 + 1 * (y 1).val
    omega

theorem blk1 (c : Dev nD) (t : Fin cfg0.N) (j : S5x1.Idx) : (iblk m c 1 t : Vec Ideal S5x1 .f32) j = V m c main_v1 j := by
  obtain ⟨⟨e0, e1⟩, -⟩ := idx_resident t
  show V m c main_v1 (((cfg0.win 1).blk t).view.emb j) = V m c main_v1 j
  refine congrArg (V m c main_v1) (funext fun a => Fin.ext ?_)
  match a with
  | ⟨0, _⟩ => show win0_1.index t (0 : Fin 2) * 5 + 1 * (j 0).val = (j 0).val; omega
  | ⟨1, _⟩ => show win0_1.index t (1 : Fin 2) * 1 + 1 * (j 1).val = (j 1).val; omega

theorem blk2 (c : Dev nD) (t : Fin cfg0.N) (j : S5x1.Idx) : (iblk m c 2 t : Vec Ideal S5x1 .f32) j = V m c main_v2 j := by
  obtain ⟨-, ⟨e0, e1⟩, -⟩ := idx_resident t
  show V m c main_v2 (((cfg0.win 2).blk t).view.emb j) = V m c main_v2 j
  refine congrArg (V m c main_v2) (funext fun a => Fin.ext ?_)
  match a with
  | ⟨0, _⟩ => show win0_2.index t (0 : Fin 2) * 5 + 1 * (j 0).val = (j 0).val; omega
  | ⟨1, _⟩ => show win0_2.index t (1 : Fin 2) * 1 + 1 * (j 1).val = (j 1).val; omega

theorem blk3 (c : Dev nD) (t : Fin cfg0.N) (j : S128x5.Idx) : (iblk m c 3 t : Vec Ideal S128x5 .f32) j = V m c main_arg3 j := by
  obtain ⟨-, -, ⟨e0, e1⟩, -⟩ := idx_resident t
  show V m c main_arg3 (((cfg0.win 3).blk t).view.emb j) = V m c main_arg3 j
  refine congrArg (V m c main_arg3) (funext fun a => Fin.ext ?_)
  match a with
  | ⟨0, _⟩ => show win0_3.index t (0 : Fin 2) * 128 + 1 * (j 0).val = (j 0).val; omega
  | ⟨1, _⟩ => show win0_3.index t (1 : Fin 2) * 5 + 1 * (j 1).val = (j 1).val; omega

theorem blk4 (c : Dev nD) (t : Fin cfg0.N) (j : S128x1.Idx) : (iblk m c 4 t : Vec Ideal S128x1 .f32) j = V m c main_v3 j := by
  obtain ⟨-, -, -, ⟨e0, e1⟩, -⟩ := idx_resident t
  show V m c main_v3 (((cfg0.win 4).blk t).view.emb j) = V m c main_v3 j
  refine congrArg (V m c main_v3) (funext fun a => Fin.ext ?_)
  match a with
  | ⟨0, _⟩ => show win0_4.index t (0 : Fin 2) * 128 + 1 * (j 0).val = (j 0).val; omega
  | ⟨1, _⟩ => show win0_4.index t (1 : Fin 2) * 1 + 1 * (j 1).val = (j 1).val; omega

theorem blk5 (c : Dev nD) (t : Fin cfg0.N) (j : S32x128.Idx) : (iblk m c 5 t : Vec Ideal S32x128 .f32) j = V m c main_arg5 j := by
  obtain ⟨-, -, -, -, ⟨e0, e1⟩, -⟩ := idx_resident t
  show V m c main_arg5 (((cfg0.win 5).blk t).view.emb j) = V m c main_arg5 j
  refine congrArg (V m c main_arg5) (funext fun a => Fin.ext ?_)
  match a with
  | ⟨0, _⟩ => show win0_5.index t (0 : Fin 2) * 32 + 1 * (j 0).val = (j 0).val; omega
  | ⟨1, _⟩ => show win0_5.index t (1 : Fin 2) * 128 + 1 * (j 1).val = (j 1).val; omega

theorem blk6 (c : Dev nD) (t : Fin cfg0.N) (j : S32x1.Idx) : (iblk m c 6 t : Vec Ideal S32x1 .f32) j = V m c main_v4 j := by
  obtain ⟨-, -, -, -, -, ⟨e0, e1⟩, -⟩ := idx_resident t
  show V m c main_v4 (((cfg0.win 6).blk t).view.emb j) = V m c main_v4 j
  refine congrArg (V m c main_v4) (funext fun a => Fin.ext ?_)
  match a with
  | ⟨0, _⟩ => show win0_6.index t (0 : Fin 2) * 32 + 1 * (j 0).val = (j 0).val; omega
  | ⟨1, _⟩ => show win0_6.index t (1 : Fin 2) * 1 + 1 * (j 1).val = (j 1).val; omega

theorem blk7 (c : Dev nD) (t : Fin cfg0.N) (j : S32x128.Idx) : (iblk m c 7 t : Vec Ideal S32x128 .f32) j = V m c main_arg7 j := by
  obtain ⟨-, -, -, -, -, -, ⟨e0, e1⟩, -⟩ := idx_resident t
  show V m c main_arg7 (((cfg0.win 7).blk t).view.emb j) = V m c main_arg7 j
  refine congrArg (V m c main_arg7) (funext fun a => Fin.ext ?_)
  match a with
  | ⟨0, _⟩ => show win0_7.index t (0 : Fin 2) * 32 + 1 * (j 0).val = (j 0).val; omega
  | ⟨1, _⟩ => show win0_7.index t (1 : Fin 2) * 128 + 1 * (j 1).val = (j 1).val; omega

theorem blk8 (c : Dev nD) (t : Fin cfg0.N) (j : S32x1.Idx) : (iblk m c 8 t : Vec Ideal S32x1 .f32) j = V m c main_v5 j := by
  obtain ⟨-, -, -, -, -, -, -, ⟨e0, e1⟩, -⟩ := idx_resident t
  show V m c main_v5 (((cfg0.win 8).blk t).view.emb j) = V m c main_v5 j
  refine congrArg (V m c main_v5) (funext fun a => Fin.ext ?_)
  match a with
  | ⟨0, _⟩ => show win0_8.index t (0 : Fin 2) * 32 + 1 * (j 0).val = (j 0).val; omega
  | ⟨1, _⟩ => show win0_8.index t (1 : Fin 2) * 1 + 1 * (j 1).val = (j 1).val; omega

theorem blk9 (c : Dev nD) (t : Fin cfg0.N) (j : S1x32.Idx) : (iblk m c 9 t : Vec Ideal S1x32 .f32) j = V m c main_arg9 j := by
  obtain ⟨-, -, -, -, -, -, -, -, ⟨e0, e1⟩, -⟩ := idx_resident t
  show V m c main_arg9 (((cfg0.win 9).blk t).view.emb j) = V m c main_arg9 j
  refine congrArg (V m c main_arg9) (funext fun a => Fin.ext ?_)
  match a with
  | ⟨0, _⟩ => show win0_9.index t (0 : Fin 2) * 1 + 1 * (j 0).val = (j 0).val; omega
  | ⟨1, _⟩ => show win0_9.index t (1 : Fin 2) * 32 + 1 * (j 1).val = (j 1).val; omega

theorem blk10 (c : Dev nD) (t : Fin cfg0.N) (j : S1x1.Idx) : (iblk m c 10 t : Vec Ideal S1x1 .f32) j = V m c main_v6 j := by
  obtain ⟨-, -, -, -, -, -, -, -, -, ⟨e0, e1⟩, -⟩ := idx_resident t
  show V m c main_v6 (((cfg0.win 10).blk t).view.emb j) = V m c main_v6 j
  refine congrArg (V m c main_v6) (funext fun a => Fin.ext ?_)
  match a with
  | ⟨0, _⟩ => show win0_10.index t (0 : Fin 2) * 1 + 1 * (j 0).val = (j 0).val; omega
  | ⟨1, _⟩ => show win0_10.index t (1 : Fin 2) * 1 + 1 * (j 1).val = (j 1).val; omega

theorem blk11 (c : Dev nD) (t : Fin cfg0.N) (j : S1x32.Idx) : (iblk m c 11 t : Vec Ideal S1x32 .f32) j = V m c main_arg11 j := by
  obtain ⟨-, -, -, -, -, -, -, -, -, -, ⟨e0, e1⟩, -⟩ := idx_resident t
  show V m c main_arg11 (((cfg0.win 11).blk t).view.emb j) = V m c main_arg11 j
  refine congrArg (V m c main_arg11) (funext fun a => Fin.ext ?_)
  match a with
  | ⟨0, _⟩ => show win0_11.index t (0 : Fin 2) * 1 + 1 * (j 0).val = (j 0).val; omega
  | ⟨1, _⟩ => show win0_11.index t (1 : Fin 2) * 32 + 1 * (j 1).val = (j 1).val; omega

theorem blk12 (c : Dev nD) (t : Fin cfg0.N) (j : S1x1.Idx) : (iblk m c 12 t : Vec Ideal S1x1 .f32) j = V m c main_v7 j := by
  obtain ⟨-, -, -, -, -, -, -, -, -, -, -, e0, e1⟩ := idx_resident t
  show V m c main_v7 (((cfg0.win 12).blk t).view.emb j) = V m c main_v7 j
  refine congrArg (V m c main_v7) (funext fun a => Fin.ext ?_)
  match a with
  | ⟨0, _⟩ => show win0_12.index t (0 : Fin 2) * 1 + 1 * (j 0).val = (j 0).val; omega
  | ⟨1, _⟩ => show win0_12.index t (1 : Fin 2) * 1 + 1 * (j 1).val = (j 1).val; omega

/-! ## What a point writes back, the cover, the array after the run -/

/-- The result row the region leaves, of the arrays it finds. -/
abbrev row (c : Dev nD) : S1x524288.Idx → Elt Ideal .f32 :=
  lanes (V m c main_v0) (V m c main_v1) (V m c main_v2) (V m c main_arg3) (V m c main_v3) (V m c main_arg5)
    (V m c main_v4) (V m c main_arg7) (V m c main_v5) (V m c main_arg9) (V m c main_v6) (V m c main_arg11) (V m c main_v7)

/-- WHAT POINT `t` WRITES BACK is block `t` of `row`. -/
theorem flushed_eq (c : Dev nD) (t : Fin cfg0.N) :
    (dats m 0 c).flushed 13 t = ((cfg0.win 13).blk t).view.read (Elt Ideal) (row m c) := by
  show (cfg0.win 13).cut (grid0.coords t) ((dats m 0 c).after 13 t) = _
  rw [after0_13]
  unfold out0_13
  rw [View.canon_unit_zero hz]
  simp only [View.ld_unit_zero (S := S5x16384) hz, View.ld_unit_zero (S := S5x1) hz, View.ld_unit_zero (S := S128x5) hz,
    View.ld_unit_zero (S := S128x1) hz, View.ld_unit_zero (S := S32x128) hz, View.ld_unit_zero (S := S32x1) hz,
    View.ld_unit_zero (S := S1x32) hz, View.ld_unit_zero (S := S1x1) hz]
  funext y
  exact body_block (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t)
    (V m c main_v0) (V m c main_v1) (V m c main_v2) (V m c main_arg3) (V m c main_v3) (V m c main_arg5) (V m c main_v4)
    (V m c main_arg7) (V m c main_v5) (V m c main_arg9) (V m c main_v6) (V m c main_arg11) (V m c main_v7)
    y (((cfg0.win 13).blk t).view.emb y) (blk_input m c t y) (blk1 m c t) (blk2 m c t) (blk3 m c t) (blk4 m c t) (blk5 m c t)
    (blk6 m c t) (blk7 m c t) (blk8 m c t) (blk9 m c t) (blk10 m c t) (blk11 m c t) (blk12 m c t)

/-- An index of the result row is in point `t`'s block iff each coordinate is in the block's range on its axis. -/
theorem mem_blk (t : Fin cfg0.N) (i : S1x524288.Idx) :
    i ∈ ((cfg0.win 13).blk t).view.set ↔ ∀ a : Fin 2, win0_13.index t a * S1x16384.size a ≤ (i a).val
      ∧ (i a).val < win0_13.index t a * S1x16384.size a + S1x16384.size a := by
  show i ∈ ((View.whole main_v8).slice (win0_13.rect t)).set ↔ _
  rw [View.set_slice_whole, Rect.mem_set_unit]
  exact Iff.rfl

/-- Column `p` of the row is in the block of point `p / 16384`. -/
theorem cover (i : S1x524288.Idx) :
    ∃ t : Fin cfg0.N, (cfg0.win 13).flush t = true ∧ i ∈ ((cfg0.win 13).blk t).view.set := by
  have hi0 : (i 0).val < 1 := (i 0).isLt
  have hi1 : (i 1).val < 524288 := (i 1).isLt
  have hN : cfg0.N = 32 := N_0
  let t : Fin cfg0.N := ⟨(i 1).val / 16384, by rw [hN]; omega⟩
  obtain ⟨-, -, e2, e3⟩ := idx_moving t
  have ht : t.val = (i 1).val / 16384 := rfl
  refine ⟨t, flush0_13 t, ?_⟩
  rw [mem_blk]
  intro a
  match a with
  | ⟨0, _⟩ =>
    show win0_13.index t (0 : Fin 2) * 1 ≤ (i 0).val ∧ (i 0).val < win0_13.index t (0 : Fin 2) * 1 + 1
    omega
  | ⟨1, _⟩ =>
    show win0_13.index t (1 : Fin 2) * 16384 ≤ (i 1).val ∧ (i 1).val < win0_13.index t (1 : Fin 2) * 16384 + 16384
    omega

/-- THE RESULT ROW after the run is `row`. -/
theorem final (c : Dev nD) : (dats m 0 c).arrAt 13 cfg0.N = row m c :=
  (dats m 0 c).arrAt_eq_of_cover 13 (row m c) (fun t _ => flushed_eq m c t) (cover)

end Cert.KernelIdeal.Whole

end
-- ==== Proof.Result.lean ====
/-
  The whole result as one function of the thirteen argument arrays: entry (r, 0) of the [524288, 1] result is the
  closed form `RowSpec.out` of row `r` of `x`, with each weight matrix read by (unit, feature) and each bias vector by
  unit.  Both programs are shown to end with this function of their arguments.
-/
import proofs.«154434_j31104153158091_2_alg».proof.Proof.RowSpec
import Idealize.ShloMosaic.Lib.ValueIdx

noncomputable section

namespace Cert.RowSpec

open Idealize.ShloMosaic Idealize.ShloMosaic.ValueIdx

/-- Row `r` of the result is the closed form of row `r` of `x`. -/
def result (X : (⟨2, ![524288, 5]⟩ : Shape).Idx → EReal) (mean std : (⟨1, ![5]⟩ : Shape).Idx → EReal)
    (W1 : (⟨2, ![128, 5]⟩ : Shape).Idx → EReal) (b1 : (⟨1, ![128]⟩ : Shape).Idx → EReal)
    (W21 : (⟨2, ![32, 128]⟩ : Shape).Idx → EReal) (b21 : (⟨1, ![32]⟩ : Shape).Idx → EReal)
    (W22 : (⟨2, ![32, 128]⟩ : Shape).Idx → EReal) (b22 : (⟨1, ![32]⟩ : Shape).Idx → EReal)
    (W31 : (⟨2, ![1, 32]⟩ : Shape).Idx → EReal) (b31 : (⟨1, ![1]⟩ : Shape).Idx → EReal)
    (W32 : (⟨2, ![1, 32]⟩ : Shape).Idx → EReal) (b32 : (⟨1, ![1]⟩ : Shape).Idx → EReal) :
    (⟨2, ![524288, 1]⟩ : Shape).Idx → EReal :=
  fun i => out (fun k => X (ix2 (i 0 : Fin 524288) k)) (fun k => mean (ix1 k)) (fun k => std (ix1 k))
    (fun j k => W1 (ix2 j k)) (fun j => b1 (ix1 j)) (fun i j => W21 (ix2 i j)) (fun i => b21 (ix1 i))
    (fun i j => W22 (ix2 i j)) (fun i => b22 (ix1 i)) (fun o i => W31 (ix2 o i)) (fun o => b31 (ix1 o))
    (fun o i => W32 (ix2 o i)) (fun o => b32 (ix1 o))

end Cert.RowSpec

end
-- ==== Proof.LibSwapAxes.lean ====
/-
  Two re-layings of a rank-2 vector that exchange its axes, read at an index, for any extents: the transpose
  [a, b] → [b, a], and the reshapes between a row [1, n] and a column [n, 1] (which keep the row-major order, so entry
  (r, 0) of the column is entry (0, r) of the row).
-/
import Idealize.ShloMosaic.Lib.Pipeline.Value
import Idealize.ShloMosaic.Lib.ValueIdx

noncomputable section

namespace Cert.LibSwapAxes

open Idealize.ShloMosaic Idealize.ShloMosaic.ValueIdx

variable {α : Type} {a b n : ℕ}

/-- Entry (k, r) of the transpose of an [a, b] vector is its entry (r, k). -/
theorem transpose_swap_apply (x : (⟨2, ![a, b]⟩ : Shape).Idx → α) (h : (⟨2, ![a, b]⟩ : Shape).Transposes [1, 0] ⟨2, ![b, a]⟩)
    (k : Fin b) (r : Fin a) : transpose ⟨2, ![b, a]⟩ [1, 0] x h (ix2 k r) = x (ix2 r k) :=
  transpose_apply [1, 0] x h (ix2 k r) (ix2 r k) (fun c => match c with
    | ⟨0, _⟩ => rfl
    | ⟨1, _⟩ => rfl)

/-- Entry (r, 0) of a row [1, n] reshaped to a column [n, 1] is the row's entry (0, r). -/
theorem shapeCast_row_to_col_apply (x : (⟨2, ![1, n]⟩ : Shape).Idx → α) (h : (⟨2, ![1, n]⟩ : Shape).ShapeCasts ⟨2, ![n, 1]⟩)
    (r : Fin n) : shapeCast ⟨2, ![n, 1]⟩ x h (ix2 r (0 : Fin 1)) = x (ix2 (0 : Fin 1) r) :=
  shapeCast_apply x h (ix2 r (0 : Fin 1)) (ix2 (0 : Fin 1) r) (by
    rw [Shape.rowMajor_val_two, Shape.rowMajor_val_two]
    show 0 * n + r.val = r.val * 1 + 0
    omega)

/-- Entry (0, r) of a column [n, 1] reshaped to a row [1, n] is the column's entry (r, 0). -/
theorem shapeCast_col_to_row_apply (x : (⟨2, ![n, 1]⟩ : Shape).Idx → α) (h : (⟨2, ![n, 1]⟩ : Shape).ShapeCasts ⟨2, ![1, n]⟩)
    (r : Fin n) : shapeCast ⟨2, ![1, n]⟩ x h (ix2 (0 : Fin 1) r) = x (ix2 r (0 : Fin 1)) :=
  shapeCast_apply x h (ix2 (0 : Fin 1) r) (ix2 r (0 : Fin 1)) (by
    rw [Shape.rowMajor_val_two, Shape.rowMajor_val_two]
    show r.val * 1 + 0 = 0 * n + r.val
    omega)

end Cert.LibSwapAxes

end
-- ==== Proof.KernelValue.lean ====
/-
  The kernel program's result as a function of its arguments.

  Around the region the program only re-lays data: before it, `x` is transposed to [5, 524288] and each bias vector
  (and mean, std) is reshaped to a column; after it, the result row [1, 524288] is reshaped to the column [524288, 1].
  A transpose swaps the two coordinates, a vector and its column hold the same entries in the same order, and the
  row and the column have the same row-major order; so entry (r, 0) of the program's result is column `r` of the row the
  region leaves, which is the closed form of row `r` of `x`: `RowSpec.result` of the arguments.
-/
import proofs.«154434_j31104153158091_2_alg».proof.Proof.Whole
import proofs.«154434_j31104153158091_2_alg».proof.Proof.Result
import proofs.«154434_j31104153158091_2_alg».proof.Proof.LibSwapAxes
import Idealize.ShloMosaic.Lib.StableHlo.Run

noncomputable section

namespace Cert.KernelIdeal.Whole

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.RowSpec

variable (m : (ℓ : Loc nD τ sig) → Buf (Elt Ideal) ℓ) (ρ : Dev nD → PrngReg)

/-! ## The arrays the region finds, as the host lines before it leave them -/

theorem found_v0 (c : Dev nD) : (V m c main_v0 : S5x524288.Idx → Elt Ideal .f32)
    = transpose S5x524288 [1, 0] (m ((c.tc : Thread nD τ).loc main_arg0)) transposes_S524288x5_S5x524288_1_0 := by
  show StableHlo.after hostOps0 (fun b => m (c, b)) (Proc.devRef .tc main_v0) = _
  after_results
theorem found_v1 (c : Dev nD) : (V m c main_v1 : S5x1.Idx → Elt Ideal .f32)
    = shapeCast S5x1 (m ((c.tc : Thread nD τ).loc main_arg1)) shapeCasts_S5_S5x1 := by
  show StableHlo.after hostOps0 (fun b => m (c, b)) (Proc.devRef .tc main_v1) = _
  after_results; rfl
theorem found_v2 (c : Dev nD) : (V m c main_v2 : S5x1.Idx → Elt Ideal .f32)
    = shapeCast S5x1 (m ((c.tc : Thread nD τ).loc main_arg2)) shapeCasts_S5_S5x1 := by
  show StableHlo.after hostOps0 (fun b => m (c, b)) (Proc.devRef .tc main_v2) = _
  after_results; rfl
theorem found_v3 (c : Dev nD) : (V m c main_v3 : S128x1.Idx → Elt Ideal .f32)
    = shapeCast S128x1 (m ((c.tc : Thread nD τ).loc main_arg4)) shapeCasts_S128_S128x1 := by
  show StableHlo.after hostOps0 (fun b => m (c, b)) (Proc.devRef .tc main_v3) = _
  after_results; rfl
theorem found_v4 (c : Dev nD) : (V m c main_v4 : S32x1.Idx → Elt Ideal .f32)
    = shapeCast S32x1 (m ((c.tc : Thread nD τ).loc main_arg6)) shapeCasts_S32_S32x1 := by
  show StableHlo.after hostOps0 (fun b => m (c, b)) (Proc.devRef .tc main_v4) = _
  after_results; rfl
theorem found_v5 (c : Dev nD) : (V m c main_v5 : S32x1.Idx → Elt Ideal .f32)
    = shapeCast S32x1 (m ((c.tc : Thread nD τ).loc main_arg8)) shapeCasts_S32_S32x1 := by
  show StableHlo.after hostOps0 (fun b => m (c, b)) (Proc.devRef .tc main_v5) = _
  after_results; rfl
theorem found_v6 (c : Dev nD) : (V m c main_v6 : S1x1.Idx → Elt Ideal .f32)
    = shapeCast S1x1 (m ((c.tc : Thread nD τ).loc main_arg10)) shapeCasts_S1_S1x1 := by
  show StableHlo.after hostOps0 (fun b => m (c, b)) (Proc.devRef .tc main_v6) = _
  after_results; rfl
theorem found_v7 (c : Dev nD) : (V m c main_v7 : S1x1.Idx → Elt Ideal .f32)
    = shapeCast S1x1 (m ((c.tc : Thread nD τ).loc main_arg12)) shapeCasts_S1_S1x1 := by
  show StableHlo.after hostOps0 (fun b => m (c, b)) (Proc.devRef .tc main_v7) = _
  after_results; rfl

/-! ## The three re-layings read at an entry -/

/-- The transposed input at (k, r) is the input at (r, k). -/
theorem transposed_apply (X : S524288x5.Idx → Elt Ideal .f32) (h : S524288x5.Transposes [1, 0] S5x524288) (k : Fin 5)
    (r : Fin 524288) : transpose S5x524288 [1, 0] X h (ix2 k r) = X (ix2 r k) :=
  Cert.LibSwapAxes.transpose_swap_apply X h k r

/-- The result column at (r, 0) is the result row at (0, r): the same row-major position. -/
theorem column_apply (R : S1x524288.Idx → Elt Ideal .f32) (h : S1x524288.ShapeCasts S524288x1) (r : Fin 524288) :
    shapeCast S524288x1 R h (ix2 r (0 : Fin 1)) = R (ix2 (0 : Fin 1) r) :=
  Cert.LibSwapAxes.shapeCast_row_to_col_apply R h r

/-! ## The program's result -/

/-- The host line after the region reshapes the row the region leaves. -/
theorem tail_eq (c : Dev nD) : Pipeline.afterTail₀ cfgs (dats m) 0 (V0 m) [hostOps1] c main_v9
    = shapeCast S524288x1 (row m c) shapeCasts_S1x524288_S524288x1 := by
  unfold Pipeline.afterTail₀
  show StableHlo.after hostOps1 _ (Proc.devRef .tc main_v9) = _
  after_results
  exact congrArg (fun A : S1x524288.Idx → Elt Ideal .f32 => shapeCast S524288x1 A shapeCasts_S1x524288_S524288x1)
    ((Pipeline.withArrays_arr spec0 launch0.win.arr_inj c (V0 m c) (fun w => (dats m 0 c).arrAt w cfg0.N) 13).trans (final m c))

/-- THE PROGRAM'S RESULT is `RowSpec.result` of its arguments. -/
theorem value (c : Dev nD) : Pipeline.afterTail₀ cfgs (dats m) 0 (V0 m) [hostOps1] c main_v9
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11)) (m ((c.tc : Thread nD τ).loc main_arg12)) := by
  rw [tail_eq]
  funext i
  obtain ⟨r, z, rfl⟩ : ∃ (r : Fin 524288) (z : Fin 1), i = ix2 r z := ⟨i 0, i 1, eq_ix2 i⟩
  obtain rfl : z = 0 := Subsingleton.elim _ _
  rw [column_apply]
  unfold row lanes result
  rw [found_v0, found_v1, found_v2, found_v3, found_v4, found_v5, found_v6, found_v7, V_main_arg3 m c, V_main_arg5 m c,
    V_main_arg7 m c, V_main_arg9 m c, V_main_arg11 m c]
  simp only [Cert.LibKeepdims.shapeCast_col_apply]
  congr 1
  funext k
  exact transposed_apply _ _ k r

/-- The run, read: the result at `RowSpec.result` of the arguments, the arguments unchanged. -/
theorem run : θ_run defs (onTc (τ := τ) (main (F := Ideal))) ⟨m, fun _ => 0, ρ⟩ (fun r => ∀ c : Dev nD,
      r.2.mem ((c.tc : Thread nD τ).loc main_v9)
        = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
            (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨((h c).2 main_v9 (Pipeline.mem_restRefs_of main_v9 (by decide) (by decide))).trans (value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).1 9).trans (((dats m 0 c).arrAt_in 9 rfl _).trans ((A_eq m c 9).trans (V_main_arg9 m c))),
      ((h c).2 main_arg10 (Pipeline.mem_restRefs_of main_arg10 (by decide) (by decide))).trans (W_main_arg10 m (dats m) c),
      ((h c).1 11).trans (((dats m 0 c).arrAt_in 11 rfl _).trans ((A_eq m c 11).trans (V_main_arg11 m c))),
      ((h c).2 main_arg12 (Pipeline.mem_restRefs_of main_arg12 (by decide) (by decide))).trans (W_main_arg12 m (dats m) c)⟩)
    (run_main m ρ)

end Cert.KernelIdeal.Whole

end
-- ==== Proof.RefValue.lean ====
/-
  The reference program's result as a function of its arguments.

  The reference works row-major: a row of `x` times the transposed weights, plus the bias spread down the rows, the
  rectifier as a maximum with a spread zero, the logistic function written out as 1 / (1 + e^(−z)), and the columns
  0 … 3 of the de-normalised state cut out as slices.  Read at row `r`, each stage is the matching stage of
  `RowSpec.out` of row `r` of `x`; the whole result is `RowSpec.result` of the arguments.
-/
import proofs.«154434_j31104153158091_2_alg».proof.Proof.Gen.ReferenceIdeal.Read
import proofs.«154434_j31104153158091_2_alg».proof.Proof.Result

noncomputable section

namespace Cert.ReferenceIdeal.Rows

open Idealize.ShloMosaic Idealize.ShloMosaic.TcCoe Idealize.ShloMosaic.ValueIdx Idealize.SL.Sem
open Cert.ReferenceIdeal Cert.ReferenceIdeal.Gen Cert.ReferenceIdeal.Read Cert.RowSpec

/-! ## The composed index maps of the read-at-an-index lemmas, by coordinates

Each says which entry of an argument (or of an earlier stage) a stage reads at row `r`: a bias spread down the rows
reads its own entry, a product reads row `r` on the left and a row of the weights (a column of their transpose) on the
right, a slice of the state reads column 0, 1, 2 or 3. -/

theorem std_idx (r : Fin 524288) (k : Fin 5) : idx_main_v0 (idx_main_v1 (ix2 r k)) = ix1 k :=
  funext fun a => match a with | ⟨0, _⟩ => rfl
theorem mean_idx (r : Fin 524288) (k : Fin 5) : idx_main_v3 (idx_main_v4 (ix2 r k)) = ix1 k :=
  funext fun a => match a with | ⟨0, _⟩ => rfl

theorem lidx7 (r : Fin 524288) (j : Fin 128) (k : Fin 5) : lidx_main_v7 (ix2 r j) k = ix2 r k :=
  funext fun a => match a with | ⟨0, _⟩ => rfl | ⟨1, _⟩ => rfl
theorem ridx7 (r : Fin 524288) (j : Fin 128) (k : Fin 5) : idx_main_v6 (ridx_main_v7 (ix2 r j) k) = ix2 j k :=
  funext fun a => match a with | ⟨0, _⟩ => rfl | ⟨1, _⟩ => rfl
theorem bias128 (r : Fin 524288) (j : Fin 128) : idx_main_v8 (idx_main_v9 (ix2 r j)) = ix1 j :=
  funext fun a => match a with | ⟨0, _⟩ => rfl

theorem lidx13 (r : Fin 524288) (i : Fin 32) (k : Fin 128) : lidx_main_v13 (ix2 r i) k = ix2 r k :=
  funext fun a => match a with | ⟨0, _⟩ => rfl | ⟨1, _⟩ => rfl
theorem ridx13 (r : Fin 524288) (i : Fin 32) (k : Fin 128) : idx_main_v12 (ridx_main_v13 (ix2 r i) k) = ix2 i k :=
  funext fun a => match a with | ⟨0, _⟩ => rfl | ⟨1, _⟩ => rfl
theorem bias32p (r : Fin 524288) (i : Fin 32) : idx_main_v14 (idx_main_v15 (ix2 r i)) = ix1 i :=
  funext fun a => match a with | ⟨0, _⟩ => rfl

theorem lidx19 (r : Fin 524288) (i : Fin 32) (k : Fin 128) : lidx_main_v19 (ix2 r i) k = ix2 r k :=
  funext fun a => match a with | ⟨0, _⟩ => rfl | ⟨1, _⟩ => rfl
theorem ridx19 (r : Fin 524288) (i : Fin 32) (k : Fin 128) : idx_main_v18 (ridx_main_v19 (ix2 r i) k) = ix2 i k :=
  funext fun a => match a with | ⟨0, _⟩ => rfl | ⟨1, _⟩ => rfl
theorem bias32s (r : Fin 524288) (i : Fin 32) : idx_main_v20 (idx_main_v21 (ix2 r i)) = ix1 i :=
  funext fun a => match a with | ⟨0, _⟩ => rfl

theorem lidx25 (r : Fin 524288) (k : Fin 32) : lidx_main_v25 (ix2 r (0 : Fin 1)) k = ix2 r k :=
  funext fun a => match a with | ⟨0, _⟩ => rfl | ⟨1, _⟩ => rfl
theorem ridx25 (r : Fin 524288) (k : Fin 32) : idx_main_v24 (ridx_main_v25 (ix2 r (0 : Fin 1)) k) = ix2 (0 : Fin 1) k :=
  funext fun a => match a with | ⟨0, _⟩ => rfl | ⟨1, _⟩ => rfl
theorem bias1p (r : Fin 524288) : idx_main_v26 (idx_main_v27 (ix2 r (0 : Fin 1))) = ix1 (0 : Fin 1) :=
  funext fun a => match a with | ⟨0, _⟩ => rfl

theorem lidx30 (r : Fin 524288) (k : Fin 32) : lidx_main_v30 (ix2 r (0 : Fin 1)) k = ix2 r k :=
  funext fun a => match a with | ⟨0, _⟩ => rfl | ⟨1, _⟩ => rfl
theorem ridx30 (r : Fin 524288) (k : Fin 32) : idx_main_v29 (ridx_main_v30 (ix2 r (0 : Fin 1)) k) = ix2 (0 : Fin 1) k :=
  funext fun a => match a with | ⟨0, _⟩ => rfl | ⟨1, _⟩ => rfl
theorem bias1s (r : Fin 524288) : idx_main_v31 (idx_main_v32 (ix2 r (0 : Fin 1))) = ix1 (0 : Fin 1) :=
  funext fun a => match a with | ⟨0, _⟩ => rfl

theorem col1_a (r : Fin 524288) : idx_main_v42 (idx_main_v43 (idx_main_v47 (ix2 r (0 : Fin 1)))) = ix2 r (1 : Fin 5) :=
  funext fun a => match a with | ⟨0, _⟩ => Fin.ext (Nat.div_one _) | ⟨1, _⟩ => rfl
theorem col3_a (r : Fin 524288) : idx_main_v44 (idx_main_v45 (idx_main_v47 (ix2 r (0 : Fin 1)))) = ix2 r (3 : Fin 5) :=
  funext fun a => match a with | ⟨0, _⟩ => Fin.ext (Nat.div_one _) | ⟨1, _⟩ => rfl
theorem col0_b (r : Fin 524288) : idx_main_v48 (idx_main_v49 (idx_main_v58 (ix2 r (0 : Fin 1)))) = ix2 r (0 : Fin 5) :=
  funext fun a => match a with | ⟨0, _⟩ => Fin.ext (Nat.div_one _) | ⟨1, _⟩ => rfl
theorem col2_b (r : Fin 524288) : idx_main_v50 (idx_main_v51 (idx_main_v58 (ix2 r (0 : Fin 1)))) = ix2 r (2 : Fin 5) :=
  funext fun a => match a with | ⟨0, _⟩ => Fin.ext (Nat.div_one _) | ⟨1, _⟩ => rfl
theorem col3_b (r : Fin 524288) : idx_main_v53 (idx_main_v54 (idx_main_v58 (ix2 r (0 : Fin 1)))) = ix2 r (3 : Fin 5) :=
  funext fun a => match a with | ⟨0, _⟩ => Fin.ext (Nat.div_one _) | ⟨1, _⟩ => rfl

/-! ## The stages at row `r` -/

/-- The de-normalised state at (r, k). -/
theorem state_apply (x0 : (⟨S524288x5, .f32⟩ : BufTy).Contents (Elt Ideal)) (x1 x2 : (⟨S5, .f32⟩ : BufTy).Contents (Elt Ideal)) (r : Fin 524288) (k : Fin 5) :
    val_main_v5 (F := Ideal) x0 x1 x2 (ix2 r k) = x0 (ix2 r k) * x2 (ix1 k) + x1 (ix1 k) := by
  rw [val_main_v5_apply, val_main_v2_apply, val_main_v1_apply, val_main_v0_apply, val_main_v4_apply, val_main_v3_apply,
    std_idx, mean_idx]
  rfl

/-- The hidden layer at (r, j). -/
theorem hidden_apply (x0 : (⟨S524288x5, .f32⟩ : BufTy).Contents (Elt Ideal)) (x3 : (⟨S128x5, .f32⟩ : BufTy).Contents (Elt Ideal)) (x4 : (⟨S128, .f32⟩ : BufTy).Contents (Elt Ideal)) (r : Fin 524288) (j : Fin 128) :
    val_main_v11 (F := Ideal) x0 x3 x4 (ix2 r j)
      = layer (fun k => x0 (ix2 r k)) (fun j k => x3 (ix2 j k)) (fun j => x4 (ix1 j)) j := by
  rw [val_main_v11_apply, val_main_v10_apply, val_main_v7_apply, val_main_v9_apply, val_main_v8_apply,
    val_main_call0_v0_apply, val_main_call0_cst_apply]
  simp only [val_main_v6_apply, lidx7, ridx7, bias128]
  rfl

/-- The first branch's layer at (r, i). -/
theorem branchP_apply (x0 : (⟨S524288x5, .f32⟩ : BufTy).Contents (Elt Ideal)) (x3 : (⟨S128x5, .f32⟩ : BufTy).Contents (Elt Ideal)) (x4 : (⟨S128, .f32⟩ : BufTy).Contents (Elt Ideal)) (x5 : (⟨S32x128, .f32⟩ : BufTy).Contents (Elt Ideal))
    (x6 : (⟨S32, .f32⟩ : BufTy).Contents (Elt Ideal)) (r : Fin 524288) (i : Fin 32) :
    val_main_v17 (F := Ideal) x0 x3 x4 x5 x6 (ix2 r i)
      = layer (fun j => val_main_v11 (F := Ideal) x0 x3 x4 (ix2 r j)) (fun i j => x5 (ix2 i j)) (fun i => x6 (ix1 i)) i := by
  rw [val_main_v17_apply, val_main_v16_apply, val_main_v13_apply, val_main_v15_apply, val_main_v14_apply,
    val_main_call1_v0_apply, val_main_call1_cst_apply]
  simp only [val_main_v12_apply, lidx13, ridx13, bias32p]
  rfl

/-- The second branch's layer at (r, i). -/
theorem branchS_apply (x0 : (⟨S524288x5, .f32⟩ : BufTy).Contents (Elt Ideal)) (x3 : (⟨S128x5, .f32⟩ : BufTy).Contents (Elt Ideal)) (x4 : (⟨S128, .f32⟩ : BufTy).Contents (Elt Ideal)) (x7 : (⟨S32x128, .f32⟩ : BufTy).Contents (Elt Ideal))
    (x8 : (⟨S32, .f32⟩ : BufTy).Contents (Elt Ideal)) (r : Fin 524288) (i : Fin 32) :
    val_main_v23 (F := Ideal) x0 x3 x4 x7 x8 (ix2 r i)
      = layer (fun j => val_main_v11 (F := Ideal) x0 x3 x4 (ix2 r j)) (fun i j => x7 (ix2 i j)) (fun i => x8 (ix1 i)) i := by
  rw [val_main_v23_apply, val_main_v22_apply, val_main_v19_apply, val_main_v21_apply, val_main_v20_apply,
    val_main_call2_v0_apply, val_main_call2_cst_apply]
  simp only [val_main_v18_apply, lidx19, ridx19, bias32s]
  rfl

/-- The linear term at row `r`. -/
theorem headP_apply (x0 : (⟨S524288x5, .f32⟩ : BufTy).Contents (Elt Ideal)) (x3 : (⟨S128x5, .f32⟩ : BufTy).Contents (Elt Ideal)) (x4 : (⟨S128, .f32⟩ : BufTy).Contents (Elt Ideal)) (x5 : (⟨S32x128, .f32⟩ : BufTy).Contents (Elt Ideal))
    (x6 : (⟨S32, .f32⟩ : BufTy).Contents (Elt Ideal)) (x9 : (⟨S1x32, .f32⟩ : BufTy).Contents (Elt Ideal)) (x10 : (⟨S1, .f32⟩ : BufTy).Contents (Elt Ideal)) (r : Fin 524288) :
    val_main_v28 (F := Ideal) x0 x3 x4 x5 x6 x9 x10 (ix2 r (0 : Fin 1))
      = affine (fun i => val_main_v17 (F := Ideal) x0 x3 x4 x5 x6 (ix2 r i)) (fun o i => x9 (ix2 o i))
          (fun o => x10 (ix1 o)) 0 := by
  rw [val_main_v28_apply, val_main_v25_apply, val_main_v27_apply, val_main_v26_apply]
  simp only [val_main_v24_apply, lidx25, ridx25, bias1p]
  rfl

/-- The penalty's pre-activation at row `r`. -/
theorem headS_apply (x0 : (⟨S524288x5, .f32⟩ : BufTy).Contents (Elt Ideal)) (x3 : (⟨S128x5, .f32⟩ : BufTy).Contents (Elt Ideal)) (x4 : (⟨S128, .f32⟩ : BufTy).Contents (Elt Ideal)) (x7 : (⟨S32x128, .f32⟩ : BufTy).Contents (Elt Ideal))
    (x8 : (⟨S32, .f32⟩ : BufTy).Contents (Elt Ideal)) (x11 : (⟨S1x32, .f32⟩ : BufTy).Contents (Elt Ideal)) (x12 : (⟨S1, .f32⟩ : BufTy).Contents (Elt Ideal)) (r : Fin 524288) :
    val_main_v33 (F := Ideal) x0 x3 x4 x7 x8 x11 x12 (ix2 r (0 : Fin 1))
      = affine (fun i => val_main_v23 (F := Ideal) x0 x3 x4 x7 x8 (ix2 r i)) (fun o i => x11 (ix2 o i))
          (fun o => x12 (ix1 o)) 0 := by
  rw [val_main_v33_apply, val_main_v30_apply, val_main_v32_apply, val_main_v31_apply]
  simp only [val_main_v29_apply, lidx30, ridx30, bias1s]
  rfl

/-- The last stage at row `r`: the closed form of the row's state, linear term and pre-activation. -/
theorem solve_apply (x0 : (⟨S524288x5, .f32⟩ : BufTy).Contents (Elt Ideal)) (x1 x2 : (⟨S5, .f32⟩ : BufTy).Contents (Elt Ideal)) (x3 : (⟨S128x5, .f32⟩ : BufTy).Contents (Elt Ideal)) (x4 : (⟨S128, .f32⟩ : BufTy).Contents (Elt Ideal))
    (x5 : (⟨S32x128, .f32⟩ : BufTy).Contents (Elt Ideal)) (x6 : (⟨S32, .f32⟩ : BufTy).Contents (Elt Ideal)) (x7 : (⟨S32x128, .f32⟩ : BufTy).Contents (Elt Ideal)) (x8 : (⟨S32, .f32⟩ : BufTy).Contents (Elt Ideal)) (x9 : (⟨S1x32, .f32⟩ : BufTy).Contents (Elt Ideal))
    (x10 : (⟨S1, .f32⟩ : BufTy).Contents (Elt Ideal)) (x11 : (⟨S1x32, .f32⟩ : BufTy).Contents (Elt Ideal)) (x12 : (⟨S1, .f32⟩ : BufTy).Contents (Elt Ideal)) (r : Fin 524288) :
    val_main_v67 (F := Ideal) x0 x1 x2 x3 x4 x5 x6 x7 x8 x9 x10 x11 x12 (ix2 r (0 : Fin 1))
      = solve (fun k => val_main_v5 (F := Ideal) x0 x1 x2 (ix2 r k))
          (val_main_v28 (F := Ideal) x0 x3 x4 x5 x6 x9 x10 (ix2 r (0 : Fin 1)))
          (val_main_v33 (F := Ideal) x0 x3 x4 x7 x8 x11 x12 (ix2 r (0 : Fin 1))) := by
  simp only [val_main_v67_apply, val_main_v64_apply, val_main_v63_apply, val_main_v62_apply, val_main_cst_3_apply,
    val_main_v61_apply, val_main_v60_apply, val_main_v47_apply, val_main_v46_apply, val_main_v43_apply, val_main_v42_apply,
    val_main_v45_apply, val_main_v44_apply, val_main_v59_apply, val_main_v41_apply, val_main_v40_apply, val_main_cst_1_apply,
    val_main_v39_apply, val_main_v38_apply, val_main_cst_0_apply, val_main_v37_apply, val_main_v36_apply, val_main_cst_apply,
    val_main_v35_apply, val_main_v34_apply, val_main_v58_apply, val_main_v57_apply, val_main_v52_apply, val_main_v49_apply,
    val_main_v48_apply, val_main_v51_apply, val_main_v50_apply, val_main_v56_apply, val_main_v55_apply, val_main_cst_2_apply,
    val_main_v54_apply, val_main_v53_apply, val_main_v66_apply, val_main_v65_apply, val_main_cst_4_apply,
    col1_a, col3_a, col0_b, col2_b, col3_b]
  simp only [Ideal.addf_def, Ideal.subf_def, Ideal.mulf_def, Ideal.hostDivf_def, Ideal.hostNegf_def, Ideal.negf_def,
    Ideal.hostUnary_exp_def, Ideal.ofBits_def]
  rw [logistic_quotient]
  rfl

/-- THE REFERENCE'S RESULT is `RowSpec.result` of its arguments. -/
theorem value (x0 : (⟨S524288x5, .f32⟩ : BufTy).Contents (Elt Ideal)) (x1 x2 : (⟨S5, .f32⟩ : BufTy).Contents (Elt Ideal)) (x3 : (⟨S128x5, .f32⟩ : BufTy).Contents (Elt Ideal)) (x4 : (⟨S128, .f32⟩ : BufTy).Contents (Elt Ideal))
    (x5 : (⟨S32x128, .f32⟩ : BufTy).Contents (Elt Ideal)) (x6 : (⟨S32, .f32⟩ : BufTy).Contents (Elt Ideal)) (x7 : (⟨S32x128, .f32⟩ : BufTy).Contents (Elt Ideal)) (x8 : (⟨S32, .f32⟩ : BufTy).Contents (Elt Ideal)) (x9 : (⟨S1x32, .f32⟩ : BufTy).Contents (Elt Ideal))
    (x10 : (⟨S1, .f32⟩ : BufTy).Contents (Elt Ideal)) (x11 : (⟨S1x32, .f32⟩ : BufTy).Contents (Elt Ideal)) (x12 : (⟨S1, .f32⟩ : BufTy).Contents (Elt Ideal)) :
    val_main_v67 (F := Ideal) x0 x1 x2 x3 x4 x5 x6 x7 x8 x9 x10 x11 x12 = result x0 x1 x2 x3 x4 x5 x6 x7 x8 x9 x10 x11 x12 := by
  funext i
  obtain ⟨r, z, rfl⟩ : ∃ (r : Fin 524288) (z : Fin 1), i = ix2 r z := ⟨i 0, i 1, eq_ix2 i⟩
  obtain rfl : z = 0 := Subsingleton.elim _ _
  rw [solve_apply, headP_apply, headS_apply]
  simp only [state_apply, branchP_apply, branchS_apply, hidden_apply]
  rfl

end Cert.ReferenceIdeal.Rows

end
-- ==== Proof.lean ====
/-
  The five claims.

  Both idealized programs end with the same function of their thirteen arguments, `RowSpec.result`: row `r` of the result
  is the closed-form solution `RowSpec.out` of row `r` of `x`.

  The kernel program transposes `x`, runs 32 grid points over column blocks of 16384 lanes, and reshapes the result row to a
  column; on one lane its body computes `out` of that lane's column (Proof/Lane.lean), the blocks tile the row
  (Proof/Whole.lean), and the re-layings around the region only rename indices (Proof/KernelValue.lean).  The reference
  computes the same stages row-major (Proof/RefValue.lean).  The two spellings differ in three places, none of which
  needs the inputs to be finite: the factors under each sum are swapped (multiplication of extended reals commutes),
  the kernel writes `0 − p` where the reference negates, and the kernel's logistic function is the reference's
  `1 / (1 + e^(−z))`.  The rounding to bf16 before each product is the identity on extended reals.

  The frames of the two kernel programs are the generated ones; the reference's frame is its generated run with the
  result dropped; the idealization rewrote nothing, so `preserves` is trivial.
-/
import proofs.«154434_j31104153158091_2_alg».proof.Defs
import proofs.«154434_j31104153158091_2_alg».proof.Proof.Gen.Kernel
import proofs.«154434_j31104153158091_2_alg».proof.Proof.Gen.Kernel.Skeleton
import proofs.«154434_j31104153158091_2_alg».proof.Proof.Gen.Kernel.Launch
import proofs.«154434_j31104153158091_2_alg».proof.Proof.Gen.Kernel.Points
import proofs.«154434_j31104153158091_2_alg».proof.Proof.Gen.Kernel.Frame
import proofs.«154434_j31104153158091_2_alg».proof.Proof.Gen.KernelIdeal
import proofs.«154434_j31104153158091_2_alg».proof.Proof.Gen.KernelIdeal.Skeleton
import proofs.«154434_j31104153158091_2_alg».proof.Proof.Gen.KernelIdeal.Launch
import proofs.«154434_j31104153158091_2_alg».proof.Proof.Gen.KernelIdeal.Points
import proofs.«154434_j31104153158091_2_alg».proof.Proof.Gen.KernelIdeal.Frame
import proofs.«154434_j31104153158091_2_alg».proof.Proof.Gen.ReferenceIdeal
import proofs.«154434_j31104153158091_2_alg».proof.Proof.Gen.Pre_finite_inputs
import proofs.«154434_j31104153158091_2_alg».proof.Proof.Gen.ReferenceIdeal.Run
import proofs.«154434_j31104153158091_2_alg».proof.Proof.Gen.ReferenceIdeal.Read
import proofs.«154434_j31104153158091_2_alg».proof.Proof.KernelValue
import proofs.«154434_j31104153158091_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments, both programs end with `RowSpec.result` of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v67_eq, Cert.ReferenceIdeal.Rows.value, h0, h1, h2, h3, h4, h5, h6, h7, h8, h9, h10,
    h11, h12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
